-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S10000x256 : Shape := ⟨2, ![10000, 256]⟩
abbrev S10000x128 : Shape := ⟨2, ![10000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩

abbrev nBuf : Space → Nat
  | .hbm => 58
  | .vmem => 5
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000x128, .bf16⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x128, .bf16⟩
  | .hbm, ⟨35, _⟩ => ⟨S1600000x128, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000, .f32⟩
  | .hbm, ⟨45, _⟩ => ⟨S1600000x1, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .local _ .vmem, ⟨0, _⟩ => ⟨S10000x256, .f32⟩
  | .local _ .vmem, ⟨1, _⟩ => ⟨S10000x256, .f32⟩
  | .local _ .vmem, ⟨2, _⟩ => ⟨S256x128, .f32⟩
  | .local _ .vmem, ⟨3, _⟩ => ⟨S10000x128, .bf16⟩
  | .local _ .vmem, ⟨4, _⟩ => ⟨S10000x128, .bf16⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S10000x256_S10000x256_0_0 : ∀ a, (![0, 0] : Fin 2 → Nat) a + S10000x256.size a ≤ S10000x256.size a
  h_S10000x256 : 0 < S10000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S10000x128_S10000x128_0_0 : ∀ a, (![0, 0] : Fin 2 → Nat) a + S10000x128.size a ≤ S10000x128.size a
  h_S10000x128 : 0 < S10000x128.numel
  packedbf16_S10000x128_S10000x128_0_0 : (Rect.unit (s := S10000x128) ![0, 0] S10000x128.size inb_S10000x128_S10000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S10000x256_S256x128_S10000x128_1_0_0_1_n_n_wf : DotDims.WF S10000x256 S256x128 S10000x128 [1] [0] [0] [1] [] []
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  gather_S100000_S1600000x1_S1600000_n_0_n_n_0_1_1_wf : GatherDims.WF S100000 S1600000x1 S1600000 [] [0] [] [0] [] 1 ![1]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x256.size a ≤ S100000x256.size a
  hwx0_0 : ∀ i : grid0.Coords, EltTy.bits .f32 = 32 ∨ (Rect.block (s := S100000x256) S10000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .bf16 = 32 ∨ (Rect.block (s := S100000x128) S10000x128.size (cc0_transform_2 i) (hinb0_2 i)).WholeWords (EltTy.packing .bf16)

variable [Facts₀]

def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S10000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 64
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000x128, .f32⟩
  | .hbm, ⟨5, _⟩ => ⟨S1x1600000, .i32⟩
  | .hbm, ⟨6, _⟩ => ⟨S1600000, .i32⟩
  | .hbm, ⟨7, _⟩ => ⟨S1x1600000, .i32⟩
  | .hbm, ⟨8, _⟩ => ⟨S1600000, .i32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S_, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000, .f32⟩
  | .hbm, ⟨44, _⟩ => ⟨S1600000, .f32⟩
  | .hbm, ⟨45, _⟩ => ⟨S1600000x1, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S1600000x128, .f32⟩
  | .hbm, ⟨56, _⟩ => ⟨S1600000x128, .f32⟩
  | .hbm, ⟨57, _⟩ => ⟨S_, .f32⟩
  | .hbm, ⟨58, _⟩ => ⟨S100000x128, .f32⟩
  | .hbm, ⟨59, _⟩ => ⟨S1600000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_call0_v0 : Ref sig .tc := ⟨.hbm, 23, rfl⟩
abbrev main_call0_v1 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c_5 : Ref sig .tc := ⟨.hbm, 35, rfl⟩
abbrev main_v22 : Ref sig .tc := ⟨.hbm, 36, rfl⟩
abbrev main_v23 : Ref sig .tc := ⟨.hbm, 37, rfl⟩
abbrev main_c_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_7 : Ref sig .tc := ⟨.hbm, 46, rfl⟩
abbrev main_v31 : Ref sig .tc := ⟨.hbm, 47, rfl⟩
abbrev main_v32 : Ref sig .tc := ⟨.hbm, 48, rfl⟩
abbrev main_c_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_9 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  dot_S100000x256_S256x128_S100000x128_1_0_0_1_n_n_wf : DotDims.WF S100000x256 S256x128 S100000x128 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.TailDefs.lean ====
/-
  The two programs after the projection h = x · W, each as ONE function of (h, the edge table, the bias).

  Both compute, for node n and column j, a sum over the edges e whose destination word names n. With d the
  normaliser vector (a function of the edge table alone, the same on both sides) and s(e) the row the source word of
  edge e selects, the reference adds (d[dest e] · d[s e]) · h[s e, j] per edge and then the bias; the kernel adds
  d[s e] · h[s e, j] per edge, multiplies the sum by d[n], and then adds the bias.
-/
import proofs.«117706_j10969346474301_2_alg».proof.Proof.Gen.KernelIdeal
import proofs.«117706_j10969346474301_2_alg».proof.Proof.Gen.ReferenceIdeal

noncomputable section

namespace Cert.ReferenceIdeal.Tail

open Cert.ReferenceIdeal Cert.ReferenceIdeal.Gen Idealize.ShloMosaic

variable {F : FTy → Type} [FloatOps F]

/-- The destination word of every edge: row 0 of the edge table, as a vector of 1600000 words. -/
def rowW (ei : IVec S2x1600000 32) : IVec S1600000 32 :=
  shapeCast S1600000 (extractStridedSlice S1x1600000 ![0, 0] ei slices_S2x1600000_S1x1600000_0_0) shapeCasts_S1x1600000_S1600000

/-- The source word of every edge: row 1 of the edge table. -/
def colW (ei : IVec S2x1600000 32) : IVec S1600000 32 :=
  shapeCast S1600000 (extractStridedSlice S1x1600000 ![1, 0] ei slices_S2x1600000_S1x1600000_1_0) shapeCasts_S1x1600000_S1600000

/-- A word made ready for a gather: a negative word has 100000 added to it, any other is kept. -/
def wrapW (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector of words stood up as a one-column index table. -/
def tbl (v : IVec S1600000 32) : IVec S1600000x1 32 :=
  broadcastInDim S1600000x1 ![0] bcast_S1600000_S1600000x1_0 v

/-- The degree of every node: 1.0 added, for every edge, at the edge's destination word (an edge whose destination
    word names no node adds nothing). -/
def deg (ei : IVec S2x1600000 32) : FVec F S100000 .f32 :=
  Host.scatterAdd scatter_S100000_S1600000x1_S1600000_n_0_0_1
    (broadcastInDim S100000 ![] bcast_S_S100000 (constant S_ .f32 0x00000000#32))
    (tbl (rowW ei))
    (broadcastInDim S1600000 ![] bcast_S_S1600000 (constant S_ .f32 0x3F800000#32))

/-- The normaliser of every node: the reciprocal square root of max(degree, 1) where the degree is positive, and 0
    elsewhere. -/
def dis (ei : IVec S2x1600000 32) : FVec F S100000 .f32 :=
  select (cmpf .ogt (deg (F := F) ei) (broadcastInDim S100000 ![] bcast_S_S100000 (constant S_ .f32 0x00000000#32)))
    (Host.rsqrt (maximumf (deg (F := F) ei) (broadcastInDim S100000 ![] bcast_S_S100000 (constant S_ .f32 0x3F800000#32))))
    (broadcastInDim S100000 ![] bcast_S_S100000 (constant S_ .f32 0x00000000#32))

/-- The bias spread over the rows. -/
def biasRows (b : FVec F S128 .f32) : FVec F S100000x128 .f32 :=
  broadcastInDim S100000x128 ![0, 1] bcast_S1x128_S100000x128_0_1 (broadcastInDim S1x128 ![1] bcast_S128_S1x128_1 b)

/-- A vector with one entry per edge spread over the 128 columns of an edge-by-column array. -/
def edgeCols (v : FVec F S1600000 .f32) : FVec F S1600000x128 .f32 :=
  broadcastInDim S1600000x128 ![0, 1] bcast_S1600000x1_S1600000x128_0_1 (broadcastInDim S1600000x1 ![0] bcast_S1600000_S1600000x1_0 v)

/-- THE REFERENCE AFTER THE PROJECTION: per edge the product of the two normalisers gathered at the destination and
    at the source word, times the gathered row of h; added up at the destination word; plus the bias. -/
def tailR (h : FVec F S100000x128 .f32) (ei : IVec S2x1600000 32) (b : FVec F S128 .f32) : FVec F S100000x128 .f32 :=
  addf
    (Host.scatterAdd scatter_S100000x128_S1600000x1_S1600000x128_1_0_0_1
      (broadcastInDim S100000x128 ![] bcast_S_S100000x128 (constant S_ .f32 0x00000000#32))
      (tbl (rowW ei))
      (mulf
        (edgeCols (mulf
          (Host.gather gather_S100000_S1600000x1_S1600000_n_0_n_n_0_1_1 (dis (F := F) ei) (tbl (wrapW (rowW ei))))
          (Host.gather gather_S100000_S1600000x1_S1600000_n_0_n_n_0_1_1 (dis (F := F) ei) (tbl (wrapW (colW ei))))))
        (Host.gather gather_S100000x128_S1600000x1_S1600000x128_1_0_n_n_0_1_1128 h (tbl (wrapW (colW ei))))))
    (biasRows b)

end Cert.ReferenceIdeal.Tail

namespace Cert.KernelIdeal.Tail

open Cert.KernelIdeal Cert.KernelIdeal.Gen Idealize.ShloMosaic

variable {F : FTy → Type} [FloatOps F]

/-- The destination word of every edge: row 0 of the edge table, as a vector of 1600000 words. -/
def rowW (ei : IVec S2x1600000 32) : IVec S1600000 32 :=
  shapeCast S1600000 (extractStridedSlice S1x1600000 ![0, 0] ei slices_S2x1600000_S1x1600000_0_0) shapeCasts_S1x1600000_S1600000

/-- The source word of every edge: row 1 of the edge table. -/
def colW (ei : IVec S2x1600000 32) : IVec S1600000 32 :=
  shapeCast S1600000 (extractStridedSlice S1x1600000 ![1, 0] ei slices_S2x1600000_S1x1600000_1_0) shapeCasts_S1x1600000_S1600000

/-- A word made ready for a gather: a negative word has 100000 added to it, any other is kept. -/
def wrapW (v : IVec S1600000 32) : IVec S1600000 32 :=
  select (cmpi .slt v (broadcastInDim S1600000 ![] bcast_S_S1600000 (constantI S_ 32 0#32)))
    (addi v (broadcastInDim S1600000 ![] bcast_S_S1600000 (constantI S_ 32 100000#32))) v

/-- A vector of words stood up as a one-column index table. -/
def tbl (v : IVec S1600000 32) : IVec S1600000x1 32 :=
  broadcastInDim S1600000x1 ![0] bcast_S1600000_S1600000x1_0 v

/-- The degree of every node: 1.0 added, for every edge, at the edge's destination word (an edge whose destination
    word names no node adds nothing). -/
def deg (ei : IVec S2x1600000 32) : FVec F S100000 .f32 :=
  Host.scatterAdd scatter_S100000_S1600000x1_S1600000_n_0_0_1
    (broadcastInDim S100000 ![] bcast_S_S100000 (constant S_ .f32 0x00000000#32))
    (tbl (rowW ei))
    (broadcastInDim S1600000 ![] bcast_S_S1600000 (constant S_ .f32 0x3F800000#32))

/-- The normaliser of every node: the reciprocal square root of max(degree, 1) where the degree is positive, and 0
    elsewhere. -/
def dis (ei : IVec S2x1600000 32) : FVec F S100000 .f32 :=
  select (cmpf .ogt (deg (F := F) ei) (broadcastInDim S100000 ![] bcast_S_S100000 (constant S_ .f32 0x00000000#32)))
    (Host.rsqrt (maximumf (deg (F := F) ei) (broadcastInDim S100000 ![] bcast_S_S100000 (constant S_ .f32 0x3F800000#32))))
    (broadcastInDim S100000 ![] bcast_S_S100000 (constant S_ .f32 0x00000000#32))

/-- The bias spread over the rows. -/
def biasRows (b : FVec F S128 .f32) : FVec F S100000x128 .f32 :=
  broadcastInDim S100000x128 ![0, 1] bcast_S1x128_S100000x128_0_1 (broadcastInDim S1x128 ![1] bcast_S128_S1x128_1 b)

/-- A vector with one entry per edge spread over the 128 columns of an edge-by-column array. -/
def edgeCols (v : FVec F S1600000 .f32) : FVec F S1600000x128 .f32 :=
  broadcastInDim S1600000x128 ![0, 1] bcast_S1600000x1_S1600000x128_0_1 (broadcastInDim S1600000x1 ![0] bcast_S1600000_S1600000x1_0 v)

/-- THE KERNEL AFTER THE PROJECTION: per edge the normaliser gathered at the source word times the gathered row of h
    (stored in the narrow format and widened again); added up at the destination word; the sum times the node's own
    normaliser; plus the bias. -/
def tailK (h : FVec F S100000x128 .bf16) (ei : IVec S2x1600000 32) (b : FVec F S128 .f32) : FVec F S100000x128 .f32 :=
  addf
    (mulf
      (Host.scatterAdd scatter_S100000x128_S1600000x1_S1600000x128_1_0_0_1
        (broadcastInDim S100000x128 ![] bcast_S_S100000x128 (constant S_ .f32 0x00000000#32))
        (tbl (rowW ei))
        (mulf
          (edgeCols (Host.gather gather_S100000_S1600000x1_S1600000_n_0_n_n_0_1_1 (dis (F := F) ei) (tbl (wrapW (colW ei)))))
          (extf .f32 (Host.gather gather_S100000x128_S1600000x1_S1600000x128_1_0_n_n_0_1_1128 h (tbl (wrapW (colW ei)))) bitsLt_bf16_f32)))
      (broadcastInDim S100000x128 ![0, 1] bcast_S100000x1_S100000x128_0_1
        (broadcastInDim S100000x1 ![0] bcast_S100000_S100000x1_0 (dis (F := F) ei))))
    (biasRows b)

end Cert.KernelIdeal.Tail

end
-- ==== Proof.LibPlainDot.lean ====
/-
  A plain matrix product read at an entry.

  A kernel's matrix unit multiplies an [a, k] matrix by a [k, b] matrix into a zero accumulator.  Over the extended
  reals the entry (r, c) of the product is the sum over the k contraction positions of the left entry (r, κ) times the
  right entry (κ, c): the textbook formula, for any contraction record of that plain layout (no batch axis; rows and
  columns kept; the left operand's second axis contracted with the right operand's first).
-/
import Idealize.ShloMosaic.Lib.ValueIdx
import Idealize.ShloMosaic.PureOps.Ideal.Laws

namespace Cert.PlainDot

open Idealize.ShloMosaic Idealize.ShloMosaic.ValueIdx

/-- Two spellings of one axis read the same coordinate. -/
theorem coord_congr {s : Shape} (j : s.Idx) (p q : ℕ) (hp : p < s.rank) (hq : q < s.rank) (h : p = q) :
    (j ⟨p, hp⟩).val = (j ⟨q, hq⟩).val := by subst h; rfl

variable {a k b : ℕ} (D : DotDims ⟨2, ![a, k]⟩ ⟨2, ![k, b]⟩ ⟨2, ![a, b]⟩)

/-- The left operand is read in the result's row. -/
theorem lhs_row (hlb : D.lhsBatch = []) (hln : D.lhsNonContracting = [(0 : Fin 2)])
    (j : (⟨2, ![a, b]⟩ : Shape).Idx) (q : D.contr.Idx) : (D.lhsIdx j q (0 : Fin 2)).val = (j (0 : Fin 2)).val := by
  unfold DotDims.lhsIdx
  rw [dif_neg (by rw [hlb]; exact List.not_mem_nil), dif_pos (by rw [hln]; exact List.mem_singleton.mpr rfl)]
  simp only [Fin.val_cast]
  exact coord_congr j _ _ _ _ (by simp [hlb, hln])

/-- The right operand is read in the result's column. -/
theorem rhs_col (hlb : D.lhsBatch = []) (hln : D.lhsNonContracting = [(0 : Fin 2)]) (hrb : D.rhsBatch = [])
    (hrn : D.rhsNonContracting = [(1 : Fin 2)])
    (j : (⟨2, ![a, b]⟩ : Shape).Idx) (q : D.contr.Idx) : (D.rhsIdx j q (1 : Fin 2)).val = (j (1 : Fin 2)).val := by
  unfold DotDims.rhsIdx
  rw [dif_neg (by rw [hrb]; exact List.not_mem_nil), dif_pos (by rw [hrn]; exact List.mem_singleton.mpr rfl)]
  simp only [Fin.val_cast]
  exact coord_congr j _ _ _ _ (by simp [hlb, hln, hrn])

/-- Entry (r, c) of the product into a zero accumulator is Σ_κ lhs(r, κ) · rhs(κ, c). -/
theorem matmul_zero_apply (hr : D.contr.rank = 1) (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(1 : Fin 2)]) (hrc : D.rhsContracting = [(0 : Fin 2)])
    {φ₁ φ₂ : FTy} (prec : Option ContractPrecision)
    (lhs : FVec Ideal ⟨2, ![a, k]⟩ φ₁) (rhs : FVec Ideal ⟨2, ![k, b]⟩ φ₂) (r : Fin a) (c : Fin b) :
    matmul D prec lhs rhs (constant ⟨2, ![a, b]⟩ .f32 0x00000000#32) (ix2 r c) = ∑ κ : Fin k, lhs (ix2 r κ) * rhs (ix2 κ c) := by
  show FloatOps.matmul D prec lhs rhs (constant ⟨2, ![a, b]⟩ .f32 0x00000000#32) (ix2 r c) = _
  rw [Ideal.matmul_constant_zero_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact lhs_row D hlb hln _ _
    | ⟨1, _⟩ => exact (D.lhsIdx_val_of_single hlc _ _).trans hk)
  have er : D.rhsIdx (ix2 r c) ((contrEquiv1 D k hr hs).symm κ) = ix2 κ c := funext fun ax => Fin.ext (by
    match ax with
    | ⟨0, _⟩ => exact (D.rhsIdx_val_of_single hrc _ _).trans hk
    | ⟨1, _⟩ => exact rhs_col D hlb hln hrb hrn _ _)
  rw [el, er]

end Cert.PlainDot
-- ==== Proof.KerValue.lean ====
/-
  The matrix-product kernel's output array as ONE function of its two argument arrays.

  The kernel multiplies x : [100000, 256] by W : [256, 128] on a grid of ten points; point t multiplies rows
  10000·t … 10000·t + 9999 of x by the whole of W and writes rows 10000·t … 10000·t + 9999 of the result.  Over the
  extended reals every change of float format is the identity and the matrix unit's product into a zero accumulator
  is the textbook sum, so entry (p, q) of the result is Σ_k x(p, k) · W(k, q), whichever point wrote it.
-/
import proofs.«117706_j10969346474301_2_alg».proof.Proof.Gen.KernelIdeal.Frame
import proofs.«117706_j10969346474301_2_alg».proof.Proof.LibPlainDot
import Idealize.ShloMosaic.Lib.Pipeline.Value
import Idealize.ShloMosaic.Lib.ValueIdx

set_option maxRecDepth 16384

noncomputable section

namespace Cert.KernelIdeal.HValue

open Cert.KernelIdeal Cert.KernelIdeal.Gen Idealize.ShloMosaic Idealize.ShloMosaic.TcCoe Idealize.SL.Sem
open Idealize.ShloMosaic.Pipeline (Dat)
open Idealize.ShloMosaic.ValueIdx

/-! ## The specification -/

/-- The matrix product of X : [100000, 256] and W : [256, 128], entry by entry: at (p, q) the sum over the 256
    contraction positions k of X(p, k) · W(k, q). -/
def proj (X : S100000x256.Idx → EReal) (W : S256x128.Idx → EReal) : S100000x128.Idx → EReal := fun i =>
  ∑ k : Fin 256, X (ix2 (⟨(i 0).val, idx2_lt0 i⟩ : Fin 100000) k) * W (ix2 k (⟨(i 1).val, idx2_lt1 i⟩ : Fin 128))

theorem proj_apply (X : S100000x256.Idx → EReal) (W : S256x128.Idx → EReal) (i : S100000x128.Idx) :
    proj X W i = ∑ k : Fin 256, X (ix2 (⟨(i 0).val, idx2_lt0 i⟩ : Fin 100000) k) * W (ix2 k (⟨(i 1).val, idx2_lt1 i⟩ : Fin 128)) := rfl

/-! ## The body's payload at an entry -/

theorem hz : (![0, 0] : Fin 2 → Nat) = fun _ => 0 := funext fun a => by fin_cases a <;> rfl

/-- Entry (p, q) of what one grid point computes from its two blocks: the plain sum of products. -/
theorem pay_apply (x0 : Vec Ideal S10000x256 .f32) (x1 : Vec Ideal S256x128 .f32) (p : Fin 10000) (q : Fin 128) :
    k0_pay1 (F := Ideal) x0 x1 (ix2 p q) = ∑ k : Fin 256, x0 (ix2 p k) * x1 (ix2 k q) := by
  unfold k0_pay1
  exact Cert.PlainDot.matmul_zero_apply dot_S10000x256_S256x128_S10000x128_1_0_0_1_n_n rfl rfl rfl rfl rfl rfl rfl rfl none _ _ p q

/-! ## What one grid point computes, entry by entry -/

/-- When a point's first block holds rows n·10000 … n·10000 + 9999 of X and its second block the whole of W, what
    the body leaves in the output block at (y₀, y₁) is entry (n·10000 + y₀, y₁) of the product of X and W. -/
theorem out_apply (X : S100000x256.Idx → EReal) (W : S256x128.Idx → EReal)
    (x0 : Vec Ideal S10000x256 .f32) (x1 : Vec Ideal S256x128 .f32) (n : ℕ)
    (h0 : ∀ (p : Fin 10000) (k : Fin 256) (i : S100000x256.Idx), (i 0).val = n * 10000 + p.val → (i 1).val = k.val →
      x0 (ix2 p k) = X i)
    (h1 : ∀ y : S256x128.Idx, x1 y = W y)
    (y : S10000x128.Idx) (i : S100000x128.Idx) (hi0 : (i 0).val = n * 10000 + (y 0).val) (hi1 : (i 1).val = (y 1).val) :
    out0_2 (F := Ideal) x0 x1 y = proj X W i := by
  obtain ⟨p, q, rfl⟩ : ∃ (p : Fin 10000) (q : Fin 128), y = ix2 p q := ⟨y 0, y 1, eq_ix2 y⟩
  unfold out0_2
  rw [View.canon_unit_zero hz]
  simp only [View.ld_unit_zero (S := S10000x256) hz, View.ld_unit_zero (S := S256x128) hz]
  rw [pay_apply, proj_apply]
  refine Finset.sum_congr rfl fun k _ => ?_
  have hq : (⟨(i 1).val, idx2_lt1 i⟩ : Fin 128) = q := Fin.ext hi1
  rw [h0 p k (ix2 (⟨(i 0).val, idx2_lt0 i⟩ : Fin 100000) k) hi0 rfl, h1, hq]

/-! ## The windows' index maps over the grid -/

/-- Point t reads block t of the rows of the first argument, the one block of the second, and writes block t of the
    rows of the result. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (m : (ℓ : Loc nD τ sig) → Buf (Elt Ideal) ℓ)

/-- The first window's block at point t is rows 10000·t … 10000·t + 9999 of the first argument. -/
theorem iblk0_apply (c : Dev nD) (t : Fin cfg0.N) (p : Fin 10000) (k : Fin 256) (i : S100000x256.Idx)
    (e0 : (i 0).val = t.val * 10000 + p.val) (e1 : (i 1).val = k.val) :
    (iblk (F := Ideal) m c 0 t : Vec Ideal S10000x256 .f32) (ix2 p k) = (V m c main_arg0 : S100000x256.Idx → EReal) i := by
  obtain ⟨f0, f1, -, -, -, -⟩ := idx_facts t
  unfold iblk
  rw [View.read_apply]
  show V m c main_arg0 _ = V m c main_arg0 _
  congr 1
  funext a
  apply Fin.ext
  match a with
  | ⟨0, _⟩ => show win0_0.index t (0 : Fin 2) * 10000 + 1 * p.val = (i 0).val; rw [f0, e0]; omega
  | ⟨1, _⟩ => show win0_0.index t (1 : Fin 2) * 256 + 1 * k.val = (i 1).val; rw [f1, e1]; omega

/-- The second window's block at every point is the whole second argument. -/
theorem iblk1_apply (c : Dev nD) (t : Fin cfg0.N) (y : S256x128.Idx) :
    (iblk (F := Ideal) m c 1 t : Vec Ideal S256x128 .f32) y = (V m c main_arg2 : S256x128.Idx → EReal) y := by
  obtain ⟨-, -, f0, f1, -, -⟩ := idx_facts t
  unfold iblk
  rw [View.read_apply]
  show V m c main_arg2 _ = V m c main_arg2 _
  congr 1
  funext a
  apply Fin.ext
  match a with
  | ⟨0, _⟩ => show win0_1.index t (0 : Fin 2) * 256 + 1 * (y 0).val = (y 0).val; rw [f0]; omega
  | ⟨1, _⟩ => show win0_1.index t (1 : Fin 2) * 128 + 1 * (y 1).val = (y 1).val; rw [f1]; omega

/-! ## From blocks to the array -/

/-- What point t writes back is block t of the product of the two argument arrays. -/
theorem flushed_eq (c : Dev nD) (t : Fin cfg0.N) :
    (dats (F := Ideal) m 0 c).flushed 2 t
      = ((cfg0.win 2).blk t).view.read (Elt Ideal) (proj (V m c main_arg0) (V m c main_arg2)) := by
  show (cfg0.win 2).cut (grid0.coords t) ((dats m 0 c).after 2 t) = _
  rw [after0_2]
  obtain ⟨-, -, -, -, g0, g1⟩ := idx_facts t
  funext j
  rw [View.read_apply]
  refine out_apply (V m c main_arg0) (V m c main_arg2) (iblk m c 0 t) (iblk m c 1 t) t.val
    (fun p k i e0 e1 => iblk0_apply m c t p k i e0 e1) (fun y => iblk1_apply m c t y) _ _ ?_ ?_
  · show win0_2.index t (0 : Fin 2) * 10000 + 1 * (j 0).val = t.val * 10000 + (j 0).val
    rw [g0]; omega
  · show win0_2.index t (1 : Fin 2) * 128 + 1 * (j 1).val = (j 1).val
    rw [g1]; omega

/-- An index of the result array is in point t's block iff each coordinate is in the block's range on its axis. -/
theorem mem_blk (t : Fin cfg0.N) (i : S100000x128.Idx) :
    i ∈ ((cfg0.win 2).blk t).view.set ↔ ∀ a : Fin 2, win0_2.index t a * S10000x128.size a ≤ (i a).val
      ∧ (i a).val < win0_2.index t a * S10000x128.size a + S10000x128.size a := by
  show i ∈ ((View.whole main_v0).slice (win0_2.rect t)).set ↔ _
  rw [View.set_slice_whole, Rect.mem_set_unit]
  exact Iff.rfl

/-- Row r of the result is written by point r / 10000: the ten blocks tile the array. -/
theorem cover (i : S100000x128.Idx) :
    ∃ t : Fin cfg0.N, (cfg0.win 2).flush t = true ∧ i ∈ ((cfg0.win 2).blk t).view.set := by
  have hi0 : (i 0).val < 100000 := idx2_lt0 i
  have hi1 : (i 1).val < 128 := idx2_lt1 i
  have hN : cfg0.N = 10 := N_0
  obtain ⟨t, ht⟩ : ∃ t : Fin cfg0.N, t.val = (i 0).val / 10000 := ⟨⟨(i 0).val / 10000, by omega⟩, rfl⟩
  obtain ⟨-, -, -, -, g0, g1⟩ := idx_facts t
  refine ⟨t, flush0_2 t, ?_⟩
  rw [mem_blk]
  intro a
  match a with
  | ⟨0, _⟩ =>
    show win0_2.index t (0 : Fin 2) * 10000 ≤ (i 0).val ∧ (i 0).val < win0_2.index t (0 : Fin 2) * 10000 + 10000
    rw [g0, ht]; omega
  | ⟨1, _⟩ =>
    show win0_2.index t (1 : Fin 2) * 128 ≤ (i 1).val ∧ (i 1).val < win0_2.index t (1 : Fin 2) * 128 + 128
    rw [g1]; omega

/-- THE RESULT ARRAY after the region: the product of the two argument arrays as the region finds them. -/
theorem arr_eq (c : Dev nD) :
    (dats (F := Ideal) m 0 c).arrAt 2 cfg0.N = proj (V m c main_arg0) (V m c main_arg2) :=
  (dats m 0 c).arrAt_eq_of_cover 2 (proj (V m c main_arg0) (V m c main_arg2)) (fun t _ => flushed_eq m c t) cover

end Cert.KernelIdeal.HValue

end
-- ==== Proof.KerTail.lean ====
/-
  The kernel program run from any memory, with its result named: after the one region the output window's array holds
  the projection (whatever the proof data say it holds: this module does not open it), and the host operations after
  the region compute from it, the edge table and the bias the function  tailK .
-/
import proofs.«117706_j10969346474301_2_alg».proof.Proof.Gen.KernelIdeal.Frame
import proofs.«117706_j10969346474301_2_alg».proof.Proof.TailDefs
import Idealize.ShloMosaic.Lib.StableHlo.Run

set_option maxRecDepth 16384

noncomputable section

namespace Cert.KernelIdeal.KerTail

open Cert.KernelIdeal Cert.KernelIdeal.Gen Idealize.ShloMosaic Idealize.ShloMosaic.TcCoe Idealize.SL.Sem Idealize.ShloMosaic.StableHlo
open Idealize.ShloMosaic.Pipeline (Dat Cfg)

variable {F : FTy → Type} [FloatOps F]

variable (m : (ℓ : Loc nD τ sig) → Buf (Elt F) ℓ) (ρ : Dev nD → PrngReg)

/-- The contents the host operations after the region start from: the pipeline's arrays as the region leaves them,
    every other buffer as the region found it. -/
abbrev exitVal (c : Dev nD) : Valuation τ sig (Elt F) :=
  Pipeline.withArrays cfg0.spec c (V0 m c) fun w => (dats m 0 c).arrAt w cfg0.N

/-- The output window's array (window 2) is the buffer the host operations read the projection from. -/
theorem exit_h (c : Dev nD) : exitVal m c (Proc.devRef .tc main_v0) = (dats m 0 c).arrAt 2 cfg0.N :=
  Pipeline.withArrays_arr spec0 launch0.win.arr_inj c _ _ 2

/-- The edge table is no array of the pipeline: it is as launched. -/
theorem exit_ei (c : Dev nD) : exitVal m c (Proc.devRef .tc main_arg1) = m ((c.tc : Thread nD τ).loc main_arg1) :=
  (Pipeline.withArrays_of_ne _ c (V0 m c) _ main_arg1 (by exact (by decide : ∀ w, Pipeline.arrRef spec0 w ≠ main_arg1))).trans (V_main_arg1 m c)

/-- Nor is the bias. -/
theorem exit_bias (c : Dev nD) : exitVal m c (Proc.devRef .tc main_arg3) = m ((c.tc : Thread nD τ).loc main_arg3) :=
  (Pipeline.withArrays_of_ne _ c (V0 m c) _ main_arg3 (by exact (by decide : ∀ w, Pipeline.arrRef spec0 w ≠ main_arg3))).trans (V_main_arg3 m c)

/-- The host operations after the region, read at the result buffer: the tail function of the three buffers they
    start from. -/
theorem tail_at_exit (c : Dev nD) :
    Pipeline.afterTail₀ cfgs (dats m) 0 (V0 m) [hostOps1, hostOps1_1, hostOps1_2] c main_v41
      = Tail.tailK (F := F) (exitVal m c (Proc.devRef .tc main_v0)) (exitVal m c (Proc.devRef .tc main_arg1))
          (exitVal m c (Proc.devRef .tc main_arg3)) := by
  unfold Pipeline.afterTail₀
  simp only [hostOps1, hostOps1_1, hostOps1_2, List.flatten_cons, List.flatten_nil, List.append_nil, List.cons_append,
    List.nil_append]
  after_results_simp <;> rfl

/-- The result buffer after the run, in terms of the output window's array. -/
theorem result_eq (c : Dev nD) :
    Pipeline.afterTail₀ cfgs (dats m) 0 (V0 m) [hostOps1, hostOps1_1, hostOps1_2] c main_v41
      = Tail.tailK (F := F) ((dats m 0 c).arrAt 2 cfg0.N) (m ((c.tc : Thread nD τ).loc main_arg1))
          (m ((c.tc : Thread nD τ).loc main_arg3)) := by
  rw [tail_at_exit, exit_h, exit_ei, exit_bias]

/-- THE KERNEL'S RUN WITH ITS RESULT NAMED: every weakly fair execution terminates, the result buffer holds the tail
    function of the output window's array, the edge table and the bias, and the arguments are unchanged. -/
theorem run :
    θ_run defs (onTc (τ := τ) (main (F := F))) ⟨m, fun _ => 0, ρ⟩ (fun r => ∀ c : Dev nD,
      r.2.mem ((c.tc : Thread nD τ).loc main_v41)
        = Tail.tailK (F := F) ((dats m 0 c).arrAt 2 cfg0.N) (m ((c.tc : Thread nD τ).loc main_arg1))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v41 (Pipeline.mem_restRefs_of main_v41 (by decide) (by decide))).trans (result_eq m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 1).trans (((dats m 0 c).arrAt_in 1 rfl _).trans ((A_eq m c 1).trans (V_main_arg2 m c))),
      (((h c).2 main_arg3 (Pipeline.mem_restRefs_of main_arg3 (by decide) (by decide))).trans (W_main_arg3 m (dats m) c))⟩)
    (run_main m ρ)

end Cert.KernelIdeal.KerTail

end
-- ==== Proof.RefRun.lean ====
/-
  The reference program run from any memory: its sixty host operations in order (the three operations of the
  outlined "where" standing at their call), every weakly fair execution terminating with the arguments unchanged and
  the result at  tailR (x · W) (edge table) (bias)  — the projection followed by the normalised neighbour sum.
-/
import proofs.«117706_j10969346474301_2_alg».proof.Proof.TailDefs
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's operations, in order. -/
abbrev ops : List (HloOp τ sig (Elt F)) :=
  [ StableHlo.binary main_arg0 main_arg2 main_v0 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)),
    StableHlo.unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v1 main_v2 rfl shapeCasts_S1x1600000_S1600000,
    StableHlo.unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v3 main_v4 rfl shapeCasts_S1x1600000_S1600000,
    StableHlo.nullary main_cst (constant S_ .f32 0x3F800000#32),
    StableHlo.unary main_cst main_v5 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v6 (broadcastInDim S100000 ![] bcast_S_S100000 : (⟨S_, .f32⟩ : BufTy).Contents (Elt F) → (⟨S100000, .f32⟩ : BufTy).Contents (Elt F)),
    StableHlo.unary main_v2 main_v7 (broadcastInDim S1600000x1 ![0] bcast_S1600000_S1600000x1_0 : (⟨S1600000, .i32⟩ : BufTy).Contents (Elt F) → (⟨S1600000x1, .i32⟩ : BufTy).Contents (Elt F)),
    StableHlo.ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x00000000#32),
    StableHlo.unary main_cst_1 main_v9 (broadcastInDim S100000 ![] bcast_S_S100000 : (⟨S_, .f32⟩ : BufTy).Contents (Elt F) → (⟨S100000, .f32⟩ : BufTy).Contents (Elt F)),
    StableHlo.binary main_v8 main_v9 main_v10 (cmpf .ogt : (⟨S100000, .f32⟩ : BufTy).Contents (Elt F) → (⟨S100000, .f32⟩ : BufTy).Contents (Elt F) → (⟨S100000, .i1⟩ : BufTy).Contents (Elt F)),
    StableHlo.nullary main_cst_2 (constant S_ .f32 0x3F800000#32),
    StableHlo.unary main_cst_2 main_v11 (broadcastInDim S100000 ![] bcast_S_S100000 : (⟨S_, .f32⟩ : BufTy).Contents (Elt F) → (⟨S100000, .f32⟩ : BufTy).Contents (Elt F)),
    StableHlo.binary main_v8 main_v11 main_v12 (maximumf : (⟨S100000, .f32⟩ : BufTy).Contents (Elt F) → (⟨S100000, .f32⟩ : BufTy).Contents (Elt F) → (⟨S100000, .f32⟩ : BufTy).Contents (Elt F)),
    StableHlo.unary main_v12 main_v13 (Host.rsqrt : (⟨S100000, .f32⟩ : BufTy).Contents (Elt F) → (⟨S100000, .f32⟩ : BufTy).Contents (Elt F)),
    StableHlo.nullary main_cst_3 (constant S_ .f32 0x00000000#32),
    StableHlo.TRef.unary (.of main_cst_3 : StableHlo.TRef sig ⟨S_, .f32⟩) (.of main_call0_v0 : StableHlo.TRef sig ⟨S_, .f32⟩) id,
    StableHlo.TRef.unary (.of main_call0_v0 : StableHlo.TRef sig ⟨S_, .f32⟩) (.of main_call0_v1 : StableHlo.TRef sig ⟨S100000, .f32⟩) (broadcastInDim S100000 ![] bcast_S_S100000),
    StableHlo.TRef.ternary (.of main_v10 : StableHlo.TRef sig ⟨S100000, .i1⟩) (.of main_v13 : StableHlo.TRef sig ⟨S100000, .f32⟩) (.of main_call0_v1 : StableHlo.TRef sig ⟨S100000, .f32⟩) (.of main_v14 : StableHlo.TRef sig ⟨S100000, .f32⟩) select,
    StableHlo.nullary main_c (constantI S_ 32 0#32),
    StableHlo.unary main_c main_v15 (broadcastInDim S1600000 ![] bcast_S_S1600000 : (⟨S_, .i32⟩ : BufTy).Contents (Elt F) → (⟨S1600000, .i32⟩ : BufTy).Contents (Elt F)),
    StableHlo.binary main_v2 main_v15 main_v16 (cmpi .slt : (⟨S1600000, .i32⟩ : BufTy).Contents (Elt F) → (⟨S1600000, .i32⟩ : BufTy).Contents (Elt F) → (⟨S1600000, .i1⟩ : BufTy).Contents (Elt F)),
    StableHlo.nullary main_c_4 (constantI S_ 32 100000#32),
    StableHlo.unary main_c_4 main_v17 (broadcastInDim S1600000 ![] bcast_S_S1600000 : (⟨S_, .i32⟩ : BufTy).Contents (Elt F) → (⟨S1600000, .i32⟩ : BufTy).Contents (Elt F)),
    StableHlo.binary main_v2 main_v17 main_v18 (addi : (⟨S1600000, .i32⟩ : BufTy).Contents (Elt F) → (⟨S1600000, .i32⟩ : BufTy).Contents (Elt F) → (⟨S1600000, .i32⟩ : BufTy).Contents (Elt F)),
    StableHlo.ternary main_v16 main_v18 main_v2 main_v19 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v19 main_v20 (broadcastInDim S1600000x1 ![0] bcast_S1600000_S1600000x1_0 : (⟨S1600000, .i32⟩ : BufTy).Contents (Elt F) → (⟨S1600000x1, .i32⟩ : BufTy).Contents (Elt F)),
    StableHlo.binary main_v14 main_v20 main_v21 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.nullary main_c_5 (constantI S_ 32 0#32),
    StableHlo.unary main_c_5 main_v22 (broadcastInDim S1600000 ![] bcast_S_S1600000 : (⟨S_, .i32⟩ : BufTy).Contents (Elt F) → (⟨S1600000, .i32⟩ : BufTy).Contents (Elt F)),
    StableHlo.binary main_v4 main_v22 main_v23 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v24 (broadcastInDim S1600000 ![] bcast_S_S1600000 : (⟨S_, .i32⟩ : BufTy).Contents (Elt F) → (⟨S1600000, .i32⟩ : BufTy).Contents (Elt F)),
    StableHlo.binary main_v4 main_v24 main_v25 (addi : (⟨S1600000, .i32⟩ : BufTy).Contents (Elt F) → (⟨S1600000, .i32⟩ : BufTy).Contents (Elt F) → (⟨S1600000, .i32⟩ : BufTy).Contents (Elt F)),
    StableHlo.ternary main_v23 main_v25 main_v4 main_v26 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v26 main_v27 (broadcastInDim S1600000x1 ![0] bcast_S1600000_S1600000x1_0 : (⟨S1600000, .i32⟩ : BufTy).Contents (Elt F) → (⟨S1600000x1, .i32⟩ : BufTy).Contents (Elt F)),
    StableHlo.binary main_v14 main_v27 main_v28 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    StableHlo.binary main_v21 main_v28 main_v29 (mulf : (⟨S1600000, .f32⟩ : BufTy).Contents (Elt F) → (⟨S1600000, .f32⟩ : BufTy).Contents (Elt F) → (⟨S1600000, .f32⟩ : BufTy).Contents (Elt F)),
    StableHlo.unary main_v29 main_v30 (broadcastInDim S1600000x1 ![0] bcast_S1600000_S1600000x1_0 : (⟨S1600000, .f32⟩ : BufTy).Contents (Elt F) → (⟨S1600000x1, .f32⟩ : BufTy).Contents (Elt F)),
    StableHlo.nullary main_c_7 (constantI S_ 32 0#32),
    StableHlo.unary main_c_7 main_v31 (broadcastInDim S1600000 ![] bcast_S_S1600000 : (⟨S_, .i32⟩ : BufTy).Contents (Elt F) → (⟨S1600000, .i32⟩ : BufTy).Contents (Elt F)),
    StableHlo.binary main_v4 main_v31 main_v32 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v33 (broadcastInDim S1600000 ![] bcast_S_S1600000 : (⟨S_, .i32⟩ : BufTy).Contents (Elt F) → (⟨S1600000, .i32⟩ : BufTy).Contents (Elt F)),
    StableHlo.binary main_v4 main_v33 main_v34 (addi : (⟨S1600000, .i32⟩ : BufTy).Contents (Elt F) → (⟨S1600000, .i32⟩ : BufTy).Contents (Elt F) → (⟨S1600000, .i32⟩ : BufTy).Contents (Elt F)),
    StableHlo.ternary main_v32 main_v34 main_v4 main_v35 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v35 main_v36 (broadcastInDim S1600000x1 ![0] bcast_S1600000_S1600000x1_0 : (⟨S1600000, .i32⟩ : BufTy).Contents (Elt F) → (⟨S1600000x1, .i32⟩ : BufTy).Contents (Elt F)),
    StableHlo.binary main_v0 main_v36 main_v37 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.unary main_v30 main_v38 (broadcastInDim S1600000x128 ![0, 1] bcast_S1600000x1_S1600000x128_0_1 : (⟨S1600000x1, .f32⟩ : BufTy).Contents (Elt F) → (⟨S1600000x128, .f32⟩ : BufTy).Contents (Elt F)),
    StableHlo.binary main_v38 main_v37 main_v39 (mulf : (⟨S1600000x128, .f32⟩ : BufTy).Contents (Elt F) → (⟨S1600000x128, .f32⟩ : BufTy).Contents (Elt F) → (⟨S1600000x128, .f32⟩ : BufTy).Contents (Elt F)),
    StableHlo.nullary main_cst_9 (constant S_ .f32 0x00000000#32),
    StableHlo.unary main_cst_9 main_v40 (broadcastInDim S100000x128 ![] bcast_S_S100000x128 : (⟨S_, .f32⟩ : BufTy).Contents (Elt F) → (⟨S100000x128, .f32⟩ : BufTy).Contents (Elt F)),
    StableHlo.unary main_v2 main_v41 (broadcastInDim S1600000x1 ![0] bcast_S1600000_S1600000x1_0 : (⟨S1600000, .i32⟩ : BufTy).Contents (Elt F) → (⟨S1600000x1, .i32⟩ : BufTy).Contents (Elt F)),
    StableHlo.ternary main_v40 main_v41 main_v39 main_v42 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v43 (broadcastInDim S1x128 ![1] bcast_S128_S1x128_1 : (⟨S128, .f32⟩ : BufTy).Contents (Elt F) → (⟨S1x128, .f32⟩ : BufTy).Contents (Elt F)),
    StableHlo.unary main_v43 main_v44 (broadcastInDim S100000x128 ![0, 1] bcast_S1x128_S100000x128_0_1 : (⟨S1x128, .f32⟩ : BufTy).Contents (Elt F) → (⟨S100000x128, .f32⟩ : BufTy).Contents (Elt F)),
    StableHlo.binary main_v42 main_v44 main_v45 (addf : (⟨S100000x128, .f32⟩ : BufTy).Contents (Elt F) → (⟨S100000x128, .f32⟩ : BufTy).Contents (Elt F) → (⟨S100000x128, .f32⟩ : BufTy).Contents (Elt F)) ]

set_option maxRecDepth 8192 in
/-- The program is the sequence of these operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches buffers of the one TensorCore address space only. -/
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
/-- From any memory with zero counters every weakly fair execution terminates; the result buffer holds the tail
    function of the projection of the two float arguments, the edge table and the bias; the arguments are unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v45)
        = Tail.tailR (F := F)
            (Host.dotGeneral dot_S100000x256_S256x128_S100000x128_1_0_0_1_n_n none
              (m ((c.tc : Thread nD τ).loc main_arg0)) (m ((c.tc : Thread nD τ).loc main_arg2)))
            (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v45).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.ReferenceIdeal.RefRun

end
-- ==== Proof.LibHostRead.lean ====
/-
  Host-side layout operations, sums and products read at an entry.

  On the host a broadcast names the axes its operand keeps.  Read here at explicit coordinates: a vector set up as
  an [n, 1] column; a scalar spread over any shape; an [n, 1] column spread along the rows to [n, b]; a vector set up
  as a [1, b] row; a [1, b] row spread down the rows to [n, b]; the last two composed (a parameter vector spread over
  [n, b]).  Over the extended reals the host's sum over axis 1 of an [n, b] array from a zero initial value, read at
  row r, is the sum of the row's b entries, and the host's plain [n, k] × [k, b] product read at (r, c) is
  Σ_κ lhs(r, κ) · rhs(κ, c), for any contraction record of that plain layout (its six field equations and the
  contraction shape's rank and extent passed as rfl).  It imports LibPlainDot.lean of the same directory.
-/
import Idealize.ShloMosaic.Lib.Pipeline.Value
import Idealize.ShloMosaic.Lib.ValueIdx
import Idealize.ShloMosaic.PureOps.Ideal.Laws
import proofs.«117706_j10969346474301_2_alg».proof.Proof.LibPlainDot

noncomputable section

namespace Cert.HostRead

open Idealize.ShloMosaic Idealize.ShloMosaic.ValueIdx

variable {α : Type} {n b : ℕ}

/-- A vector of n entries set up as an [n, 1] column, read at (r, u): the vector's entry r. -/
theorem col_apply (h : (⟨1, ![n]⟩ : Shape).BroadcastsInDim ⟨2, ![n, 1]⟩ ![0]) (v : (⟨1, ![n]⟩ : Shape).Idx → α)
    (r : Fin n) (u : Fin 1) : broadcastInDim ⟨2, ![n, 1]⟩ ![0] h v (ix2 r u) = v (ix1 r) := by
  refine broadcastInDim_apply ![0] h v (ix2 r u) (ix1 r) fun ax => ?_
  match ax with
  | ⟨0, _⟩ =>
    show r.val = if n = 1 then 0 else r.val
    split
    · have := r.isLt; omega
    · rfl

/-- A scalar spread over any shape: the scalar at every index. -/
theorem splat_apply {t : Shape} (h : (⟨0, ![]⟩ : Shape).BroadcastsInDim t ![]) (v : (⟨0, ![]⟩ : Shape).Idx → α) (j : t.Idx) :
    broadcastInDim t ![] h v j = v ix0 :=
  broadcastInDim_apply ![] h v j ix0 fun ax => ax.elim0

/-- An [n, 1] column spread along the rows to [n, b], read at (r, c): the column's entry (r, 0). -/
theorem colspread_apply (h : (⟨2, ![n, 1]⟩ : Shape).BroadcastsInDim ⟨2, ![n, b]⟩ ![0, 1]) (v : (⟨2, ![n, 1]⟩ : Shape).Idx → α)
    (r : Fin n) (c : Fin b) : broadcastInDim ⟨2, ![n, b]⟩ ![0, 1] h v (ix2 r c) = v (ix2 r (0 : Fin 1)) := by
  refine broadcastInDim_apply ![0, 1] h v (ix2 r c) (ix2 r (0 : Fin 1)) fun ax => ?_
  match ax with
  | ⟨0, _⟩ =>
    show r.val = if n = 1 then 0 else r.val
    split
    · have := r.isLt; omega
    · rfl
  | ⟨1, _⟩ => rfl

/-- A vector of b entries set up as a [1, b] row, read at (u, c): the vector's entry c. -/
theorem row_apply (h : (⟨1, ![b]⟩ : Shape).BroadcastsInDim ⟨2, ![1, b]⟩ ![1]) (v : (⟨1, ![b]⟩ : Shape).Idx → α)
    (u : Fin 1) (c : Fin b) : broadcastInDim ⟨2, ![1, b]⟩ ![1] h v (ix2 u c) = v (ix1 c) := by
  refine broadcastInDim_apply ![1] h v (ix2 u c) (ix1 c) fun ax => ?_
  match ax with
  | ⟨0, _⟩ =>
    show c.val = if b = 1 then 0 else c.val
    split
    · have := c.isLt; omega
    · rfl

/-- A [1, b] row spread down the rows to [n, b], read at (r, c): the row's entry (0, c). -/
theorem rowspread_apply (h : (⟨2, ![1, b]⟩ : Shape).BroadcastsInDim ⟨2, ![n, b]⟩ ![0, 1]) (v : (⟨2, ![1, b]⟩ : Shape).Idx → α)
    (r : Fin n) (c : Fin b) : broadcastInDim ⟨2, ![n, b]⟩ ![0, 1] h v (ix2 r c) = v (ix2 (0 : Fin 1) c) := by
  refine broadcastInDim_apply ![0, 1] h v (ix2 r c) (ix2 (0 : Fin 1) c) fun ax => ?_
  match ax with
  | ⟨0, _⟩ => rfl
  | ⟨1, _⟩ =>
    show c.val = if b = 1 then 0 else c.val
    split
    · have := c.isLt; omega
    · rfl

/-- A parameter vector as the host spreads it over [n, b] (a [1, b] row, then down the rows), read at (r, c). -/
theorem param_apply (h1 : (⟨1, ![b]⟩ : Shape).BroadcastsInDim ⟨2, ![1, b]⟩ ![1])
    (h2 : (⟨2, ![1, b]⟩ : Shape).BroadcastsInDim ⟨2, ![n, b]⟩ ![0, 1]) (v : (⟨1, ![b]⟩ : Shape).Idx → α) (r : Fin n) (c : Fin b) :
    broadcastInDim ⟨2, ![n, b]⟩ ![0, 1] h2 (broadcastInDim ⟨2, ![1, b]⟩ ![1] h1 v) (ix2 r c) = v (ix1 c) :=
  (rowspread_apply h2 _ r c).trans (row_apply h1 v 0 c)

/-- The host's sum over axis 1 of an [n, b] array from a zero initial value, read at row r: the sum of the row. -/
theorem rowSum_apply (x : FVec Ideal ⟨2, ![n, b]⟩ .f32) (h' : (⟨2, ![n, b]⟩ : Shape).ReducesTo [1] ⟨1, ![n]⟩)
    (h : (⟨2, ![n, b]⟩ : Shape).Reduces [1] ⟨1, ![n]⟩) (hu : 0 < (⟨0, ![]⟩ : Shape).numel) (r : Fin n) :
    Host.reduceAdd x (constant ⟨0, ![]⟩ .f32 0x00000000#32) h' hu (ix1 r) = ∑ k : Fin b, x (ix2 r k) := by
  show Ideal.hostReduceAdd h' x (Ideal.ofBits .f32 0x00000000#32) (ix1 r) = _
  rw [Ideal.hostReduceAdd_single h' h, Ideal.ofBits_zero_f32, zero_add]
  refine Finset.sum_congr rfl fun k _ => congrArg x ?_
  funext c
  apply Fin.ext
  match c with
  | ⟨0, _⟩ => rfl
  | ⟨1, _⟩ => rfl

/-- The host's plain [n, k] × [k, b] product, read at (r, c): Σ_κ lhs(r, κ) · rhs(κ, c). -/
theorem dot_apply {k : ℕ} (D : DotDims ⟨2, ![n, k]⟩ ⟨2, ![k, b]⟩ ⟨2, ![n, b]⟩) (hr : D.contr.rank = 1)
    (hs : D.contr.size ⟨0, by omega⟩ = k)
    (hlb : D.lhsBatch = []) (hln : D.lhsNonContracting = [(0 : Fin 2)]) (hlc : D.lhsContracting = [(1 : Fin 2)])
    (hrb : D.rhsBatch = []) (hrn : D.rhsNonContracting = [(1 : Fin 2)]) (hrc : D.rhsContracting = [(0 : Fin 2)])
    {φ₁ φ₂ : FTy} (prec : Option ContractPrecision)
    (lhs : FVec Ideal ⟨2, ![n, k]⟩ φ₁) (rhs : FVec Ideal ⟨2, ![k, b]⟩ φ₂) (r : Fin n) (c : Fin b) :
    Host.dotGeneral D prec lhs rhs (ix2 r c) = ∑ κ : Fin k, lhs (ix2 r κ) * rhs (ix2 κ c) := by
  show FloatOps.dotGeneral D prec .single lhs rhs (ix2 r c) = _
  rw [Ideal.dotGeneral_apply, ← Equiv.sum_comp (contrEquiv1 D k hr hs).symm]
  refine Finset.sum_congr rfl fun κ _ => ?_
  have hk := contrEquiv1_symm_val D k hr hs κ
  have el : D.lhsIdx (ix2 r c) ((contrEquiv1 D k hr hs).symm κ) = ix2 r κ := funext fun ax => Fin.ext (by
    match ax with
    | ⟨0, _⟩ => exact Cert.PlainDot.lhs_row D hlb hln _ _
    | ⟨1, _⟩ => exact (D.lhsIdx_val_of_single hlc _ _).trans hk)
  have er : D.rhsIdx (ix2 r c) ((contrEquiv1 D k hr hs).symm κ) = ix2 κ c := funext fun ax => Fin.ext (by
    match ax with
    | ⟨0, _⟩ => exact (D.rhsIdx_val_of_single hrc _ _).trans hk
    | ⟨1, _⟩ => exact Cert.PlainDot.rhs_col D hlb hln hrb hrn _ _)
  rw [el, er]

end Cert.HostRead

end
-- ==== Proof.RefProj.lean ====
/-
  The reference's projection is the kernel's: the host's plain product of an [100000, 256] array and a [256, 128]
  array, read at (p, q), is the sum over the 256 contraction positions k of X(p, k) · W(k, q) — the function the
  kernel's output array was shown to be.
-/
import proofs.«117706_j10969346474301_2_alg».proof.Proof.KerValue
import proofs.«117706_j10969346474301_2_alg».proof.Proof.LibHostRead
import proofs.«117706_j10969346474301_2_alg».proof.Proof.Gen.ReferenceIdeal

noncomputable section

namespace Cert.ReferenceIdeal.RefProj

open Idealize.ShloMosaic Idealize.ShloMosaic.ValueIdx

/-- The reference's contraction of its two float arguments is the product function `proj`. -/
theorem dot_eq_proj (X : FVec Ideal Cert.ReferenceIdeal.S100000x256 .f32) (W : FVec Ideal Cert.ReferenceIdeal.S256x128 .f32) :
    Host.dotGeneral (F := Ideal) Cert.ReferenceIdeal.dot_S100000x256_S256x128_S100000x128_1_0_0_1_n_n none X W
      = Cert.KernelIdeal.HValue.proj X W := by
  funext i
  obtain ⟨p, q, rfl⟩ : ∃ (p : Fin 100000) (q : Fin 128), i = ix2 p q := ⟨i 0, i 1, eq_ix2 i⟩
  refine (Cert.HostRead.dot_apply (n := 100000) (b := 128) (k := 256)
    Cert.ReferenceIdeal.dot_S100000x256_S256x128_S100000x128_1_0_0_1_n_n rfl rfl rfl rfl rfl rfl rfl rfl none X W p q).trans ?_
  rfl

end Cert.ReferenceIdeal.RefProj

end
-- ==== Proof.LibScatterRows.lean ====
/-
  Reading an accumulating scatter at an index, when the scatter is by ROWS.

  The operand is an `R × C` array, the updates a `U × C` array, and the index table has one column: update row `r`
  is added, whole, to operand row `ρ r`. (Dimension numbers: the updates' window is their axis 1, the operand's
  inserted axis is 0, the one start component goes to operand axis 0, the index vector is the table's axis 1.)
  On the extended reals the accumulating scatter is an exact sum, so at an index `(a, c)` its result is the operand's
  element plus the sum of `upd (r, c)` over the rows `r` in the fibre `ρ ⁻¹ a` — in whatever order: addition of
  extended reals is commutative and associative.  This file proves that reading from the definition of the target
  index (start read signed off the table, plus the window coordinate), and then counts a fibre that is the image of
  `Fin P` under an injection as a sum over `Fin P`.
-/
import Idealize.ShloMosaic.PureOps.Ideal
import Idealize.ShloMosaic.Lib.ValueIdx

noncomputable section

namespace ScatterRows

open Idealize.ShloMosaic Idealize.ShloMosaic.ValueIdx

/-- The operand's shape, `R` rows of `C` entries. -/
abbrev Opnd (R C : Nat) : Shape := ⟨2, ![R, C]⟩
/-- The index table's shape: one start component per update row. -/
abbrev Tbl (U : Nat) : Shape := ⟨2, ![U, 1]⟩
/-- The updates' shape, `U` rows of `C` entries. -/
abbrev Upd (U C : Nat) : Shape := ⟨2, ![U, C]⟩

variable {R C U w : Nat}

/-- The row of a table index, as a plain `Fin U`. -/
abbrev tblRow (q : (Tbl U).Idx) : Fin U := ⟨(q 0).val, idx2_lt0 q⟩
/-- The row of an update index, as a plain `Fin U`. -/
abbrev updRow (j : (Upd U C).Idx) : Fin U := ⟨(j 0).val, idx2_lt0 j⟩

/-- A valid index into a one-element list reads its element. -/
theorem getElem_singleton_any {α : Type} (a : α) (k : Nat) (hk : k < [a].length) : [a][k]'hk = a := by
  have h0 : k = 0 := by simpa using hk
  subst h0; rfl

/-- The same for a list that equals a one-element list. -/
theorem getElem_of_eq_singleton {α : Type} (l : List α) (a : α) (hl : l = [a]) (k : Nat) (hk : k < l.length) :
    l[k]'hk = a := by
  subst hl; exact getElem_singleton_any a k hk

/-- On the row axis the target coordinate of update index `j` is the table's word for `j`'s row, read signed: the
    start component comes from the table, and the window contributes nothing on an inserted axis. -/
theorem coord_row (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.start j idx 0 + (d.window j 0 : Int) = ((ρ (updRow j)).val : Int) := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0, hrow]
  simp only [Nat.cast_zero, add_zero]
  refine congrArg (fun r : Fin U => ((ρ r).val : Int)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- On the column axis the target coordinate is `j`'s own column: no start component, and the window is the
    updates' axis 1. -/
theorem coord_col (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 1 + (d.window j 1 : Int) = ((j 1).val : Int) := by
  obtain ⟨uw, iw, sd, iv, wf⟩ := d
  dsimp only at h1 h2 h3 h4
  subst h1 h2 h3 h4
  have m1 : (1 : Fin 2) ∉ ([0] : List (Fin 2)) := by decide
  have k1 : (1 : Fin 2) ∈ ScatterDims.sKept (⟨[1], [0], [0], 1, wf⟩ : ScatterDims (Opnd R C) (Tbl U) (Upd U C)) := by
    show (1 : Fin 2) ∈ (List.finRange 2).filter (fun x => decide (x ∉ ([0] : List (Fin 2))))
    decide
  have e1 : List.idxOf (1 : Fin 2) (ScatterDims.sKept (⟨[1], [0], [0], 1, wf⟩ : ScatterDims (Opnd R C) (Tbl U) (Upd U C))) = 0 := by
    show List.idxOf (1 : Fin 2) ((List.finRange 2).filter (fun x => decide (x ∉ ([0] : List (Fin 2))))) = 0
    decide
  simp only [ScatterDims.start, ScatterDims.window]
  rw [dif_neg m1, dif_pos k1]
  simp only [zero_add, Nat.cast_inj]
  exact congrArg (fun a => (j a).val) (getElem_singleton_any _ _ _)

/-- The column of an index, as a plain `Fin C`. -/
abbrev updCol (j : (Upd U C).Idx) : Fin C := ⟨(j 1).val, idx2_lt1 j⟩

/-- WHERE AN UPDATE LANDS. When the table's word for row `r` reads, signed, as the row `ρ r` of the operand, update
    index `(r, c)` lands at `(ρ r, c)`: both coordinates are inside the operand by their types, so no update is
    dropped. -/
theorem resultIdx_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int)) (j : (Upd U C).Idx) :
    d.resultIdx? j idx = some (ix2 (ρ (updRow j)) (updCol j)) := by
  have c0 := coord_row d h1 h2 h3 h4 ρ idx hrow j
  have c1 := coord_col d h1 h2 h3 h4 idx j
  have hall : ∀ a, 0 ≤ d.start j idx a + (d.window j a : Int) ∧ d.start j idx a + (d.window j a : Int) < ((Opnd R C).size a : Nat) := by
    refine Fin.forall_fin_two.2 ⟨?_, ?_⟩
    · rw [c0]
      exact ⟨Int.natCast_nonneg _, by exact_mod_cast (ρ (updRow j)).isLt⟩
    · rw [c1]
      exact ⟨Int.natCast_nonneg _, by exact_mod_cast idx2_lt1 j⟩
  unfold ScatterDims.resultIdx?
  rw [dif_pos hall]
  refine congrArg some (funext ?_)
  refine Fin.forall_fin_two.2 ⟨?_, ?_⟩
  · apply Fin.ext
    show (d.start j idx 0 + (d.window j 0 : Int)).toNat = (ρ (updRow j)).val
    rw [c0, Int.toNat_natCast]
  · apply Fin.ext
    show (d.start j idx 1 + (d.window j 1 : Int)).toNat = (j 1).val
    rw [c1, Int.toNat_natCast]

/-- THE SCATTER READ AT AN INDEX: the operand's element plus the sum, over the update rows `r` that the table sends
    to this row, of the update's element in this column. -/
theorem scatterAdd_rows (d : ScatterDims (Opnd R C) (Tbl U) (Upd U C))
    (h1 : d.updateWindowDims = [1]) (h2 : d.insertedWindowDims = [0]) (h3 : d.scatterDimsToOperandDims = [0])
    (h4 : d.indexVectorDim = 1) (ρ : Fin U → Fin R) (idx : IVec (Tbl U) w)
    (hrow : ∀ q : (Tbl U).Idx, (idx q).toInt = ((ρ (tblRow q)).val : Int))
    (x : (Opnd R C).Idx → EReal) (upd : (Upd U C).Idx → EReal) (a : Fin R) (c : Fin C) :
    Ideal.hostScatterAdd d x idx upd (ix2 a c)
      = x (ix2 a c) + ∑ r ∈ Finset.univ.filter (fun r : Fin U => ρ r = a), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    refine ⟨Finset.mem_univ _, ?_⟩
    have h := hj.2
    rw [resultIdx_rows d h1 h2 h3 h4 ρ idx hrow j, Option.some.injEq] at h
    exact congrFun h 0
  · intro r hr
    rw [Finset.mem_filter] at hr ⊢
    refine ⟨Finset.mem_univ _, ?_⟩
    rw [resultIdx_rows d h1 h2 h3 h4 ρ idx hrow (ix2 r c)]
    refine congrArg some ?_
    show ix2 (ρ r) c = ix2 a c
    rw [hr.2]
  · intro j hj
    rw [Finset.mem_filter] at hj
    have h := hj.2
    rw [resultIdx_rows d h1 h2 h3 h4 ρ idx hrow j, Option.some.injEq] at h
    have hc : updCol j = c := congrFun h 1
    conv_rhs => rw [eq_ix2 j]
    refine congrArg₂ ix2 (Fin.ext rfl) ?_
    exact Fin.ext (by rw [← hc])
  · intro r _
    exact Fin.ext rfl
  · intro j hj
    rw [Finset.mem_filter] at hj
    have h := hj.2
    rw [resultIdx_rows d h1 h2 h3 h4 ρ idx hrow j, Option.some.injEq] at h
    have hc : updCol j = c := congrFun h 1
    refine congrArg upd ?_
    conv_lhs => rw [eq_ix2 j]
    refine congrArg₂ ix2 (Fin.ext rfl) ?_
    exact Fin.ext (by rw [← hc])

end ScatterRows

end
-- ==== Proof.LibScatterDrop.lean ====
/-
  Reading a row gather and an accumulating row scatter at an index, WHATEVER the index table holds.

  The operand is an `R × C` array, the updates a `U × C` array and the index table has one column, one word per update
  row. Nothing is assumed about the words. For the scatter (updates' window their axis 1, operand's inserted axis 0,
  the one start component going to operand axis 0, index vector the table's axis 1) update index `(r, c)` has the
  target `(the table's word for row r read signed, c)`; it lands there when the word is a row of the operand and is
  dropped otherwise. So on the extended reals the result at `(a, c)` is the operand's element plus the sum of
  `upd (r, c)` over the update rows `r` whose word reads, signed, as `a` — a word that is negative or at least `R`
  equals no `a` and so contributes to no element, which is exactly "dropped".
  For the gather (offset axis the result's axis 1, operand's axis 0 collapsed, the one start component for operand axis 0,
  slices one whole row) result index `(r, c)` reads the operand at `(the table's word for row r read signed and clamped
  into [0, R - 1], c)`. The width `C` enters neither the filter of the scatter nor the row of the gather: that is what
  lets a scatter of a gather be compared across two widths.
-/
import proofs.«117706_j10969346474301_2_alg».proof.Proof.LibScatterRows

noncomputable section

namespace ScatterDrop

open Idealize.ShloMosaic Idealize.ShloMosaic.ValueIdx ScatterRows

variable {R C U w : Nat}

/-- A table index is its row with column 0: the table has one column. -/
theorem tbl_eq (q : (Tbl U).Idx) : q = ix2 (tblRow q) (0 : Fin 1) := by
  funext a
  match a with
  | ⟨0, _⟩ => exact Fin.ext rfl
  | ⟨1, _⟩ => exact Fin.ext (by have := idx2_lt1 q; show (q 1).val = 0; omega)

/-- On the row axis the target coordinate of update index `j` is the table's word for `j`'s row, read signed,
    whatever that word is: the start component comes from the table unclamped, and the window contributes nothing on
    an inserted axis. -/
theorem coord_row_word (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) :
    d.start j idx 0 + (d.window j 0 : Int) = (idx (ix2 (updRow j) (0 : Fin 1))).toInt := by
  obtain ⟨uw, iw, sd, iv, wf⟩ := d
  dsimp only at h1 h2 h3 h4
  subst h1 h2 h3 h4
  have m0 : (0 : Fin 2) ∈ ([0] : List (Fin 2)) := by decide
  have k0 : (0 : Fin 2) ∉ ScatterDims.sKept (⟨[1], [0], [0], 1, wf⟩ : ScatterDims (Opnd R C) (Tbl U) (Upd U C)) := by
    show (0 : Fin 2) ∉ (List.finRange 2).filter (fun x => decide (x ∉ ([0] : List (Fin 2))))
    decide
  simp only [ScatterDims.start, ScatterDims.window]
  rw [dif_pos m0, dif_neg k0]
  simp only [Nat.cast_zero, add_zero]
  refine congrArg (fun q => (idx q).toInt) ?_
  refine (tbl_eq _).trans ?_
  refine congrArg (fun r : Fin U => ix2 r (0 : Fin 1)) (Fin.ext ?_)
  -- the table index that update `j` reads has `j`'s row: the updates' one scatter axis is axis 0
  have hu : ScatterDims.uScatter (⟨[1], [0], [0], 1, wf⟩ : ScatterDims (Opnd R C) (Tbl U) (Upd U C)) = [0] := by
    show (List.finRange 2).filter (fun x => decide (x ∉ ([1] : List (Fin 2)))) = [0]
    decide
  simp only [tblRow, updRow, ScatterDims.siIdx]
  split
  · rename_i h
    exact absurd h Nat.zero_ne_one
  · unfold ScatterDims.siCoord
    simp only [Fin.coe_cast]
    exact congrArg (fun a => (j a).val) (getElem_of_eq_singleton _ 0 hu _ _)

/-- WHERE AN UPDATE LANDS, AND WHEN. Update index `j` lands at `(a, c)` exactly when the table's word for `j`'s row
    reads, signed, as `a` and `j`'s column is `c`. A word outside `[0, R)` reads as no `a : Fin R`: the update is
    dropped. -/
theorem resultIdx_eq_some_iff (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w) (j : (Upd U C).Idx) (a : Fin R) (c : Fin C) :
    d.resultIdx? j idx = some (ix2 a c)
      ↔ (idx (ix2 (updRow j) (0 : Fin 1))).toInt = (a.val : Int) ∧ updCol j = c := by
  have c0 := coord_row_word d h1 h2 h3 h4 idx j
  have c1 := coord_col d h1 h2 h3 h4 idx j
  unfold ScatterDims.resultIdx?
  split
  · rename_i hall
    have p0 := (hall 0).1
    constructor
    · intro h
      have h' := Option.some.inj h
      have e0 : (d.start j idx 0 + (d.window j 0 : Int)).toNat = a.val := congrArg Fin.val (congrFun h' 0)
      have e1 : (d.start j idx 1 + (d.window j 1 : Int)).toNat = c.val := congrArg Fin.val (congrFun h' 1)
      refine ⟨?_, Fin.ext ?_⟩
      · rw [← c0]; omega
      · show (j 1).val = c.val
        rw [c1] at e1; omega
    · rintro ⟨hr, hc⟩
      refine congrArg some (funext ?_)
      refine Fin.forall_fin_two.2 ⟨?_, ?_⟩
      · apply Fin.ext
        show (d.start j idx 0 + (d.window j 0 : Int)).toNat = a.val
        rw [c0, hr, Int.toNat_natCast]
      · apply Fin.ext
        show (d.start j idx 1 + (d.window j 1 : Int)).toNat = c.val
        rw [c1, Int.toNat_natCast, ← hc]
  · rename_i hall
    constructor
    · intro h
      exact absurd h (by simp)
    · rintro ⟨hr, hc⟩
      refine absurd ?_ hall
      refine Fin.forall_fin_two.2 ⟨?_, ?_⟩
      · rw [c0, hr]
        exact ⟨Int.natCast_nonneg _, by exact_mod_cast a.isLt⟩
      · rw [c1]
        exact ⟨Int.natCast_nonneg _, by exact_mod_cast idx2_lt1 j⟩

/-- THE SCATTER READ AT AN INDEX, with no hypothesis on the table: the operand's element plus the sum, over the update
    rows `r` whose word reads signed as this row, of the update's element in this column. -/
theorem scatterAdd_rows_drop (d : ScatterDims (Opnd R C) (Tbl U) (Upd U C))
    (h1 : d.updateWindowDims = [1]) (h2 : d.insertedWindowDims = [0]) (h3 : d.scatterDimsToOperandDims = [0])
    (h4 : d.indexVectorDim = 1) (idx : IVec (Tbl U) w)
    (x : (Opnd R C).Idx → EReal) (upd : (Upd U C).Idx → EReal) (a : Fin R) (c : Fin C) :
    Ideal.hostScatterAdd d x idx upd (ix2 a c)
      = x (ix2 a c)
        + ∑ r ∈ Finset.univ.filter (fun r : Fin U => (idx (ix2 r (0 : Fin 1))).toInt = (a.val : Int)), upd (ix2 r c) := by
  unfold Ideal.hostScatterAdd
  refine congrArg (x (ix2 a c) + ·) ?_
  refine Finset.sum_bij' (fun j _ => updRow j) (fun r _ => ix2 r c) ?_ ?_ ?_ ?_ ?_
  · intro j hj
    rw [Finset.mem_filter] at hj ⊢
    exact ⟨Finset.mem_univ _, ((resultIdx_eq_some_iff d h1 h2 h3 h4 idx j a c).1 hj.2).1⟩
  · intro r hr
    rw [Finset.mem_filter] at hr ⊢
    refine ⟨Finset.mem_univ _, (resultIdx_eq_some_iff d h1 h2 h3 h4 idx (ix2 r c) a c).2 ⟨?_, Fin.ext rfl⟩⟩
    exact hr.2
  · intro j hj
    rw [Finset.mem_filter] at hj
    have hc : updCol j = c := ((resultIdx_eq_some_iff d h1 h2 h3 h4 idx j a c).1 hj.2).2
    conv_rhs => rw [eq_ix2 j]
    refine congrArg₂ ix2 (Fin.ext rfl) ?_
    exact Fin.ext (by rw [← hc])
  · intro r _
    exact Fin.ext rfl
  · intro j hj
    rw [Finset.mem_filter] at hj
    have hc : updCol j = c := ((resultIdx_eq_some_iff d h1 h2 h3 h4 idx j a c).1 hj.2).2
    refine congrArg upd ?_
    conv_lhs => rw [eq_ix2 j]
    refine congrArg₂ ix2 (Fin.ext rfl) ?_
    exact Fin.ext (by rw [← hc])

/-! ## The row gather at an index -/

section Gather
variable {α : Type}

/-- The row a gather reads for update row `r`: the table's word read signed and clamped into `[0, R - 1]`. It does
    not depend on the width of the operand. -/
def gRow (hR : 0 < R) (idx : IVec (Tbl U) w) (r : Fin U) : Fin R :=
  ⟨min (idx (ix2 r (0 : Fin 1))).toInt.toNat (R - 1), by omega⟩

/-- THE ROW GATHER READ AT AN INDEX: result index `(r, c)` reads the operand at `(gRow r, c)`, for any width `C`:
    on the row axis the clamped start and nothing else (the axis is collapsed), on the column axis the offset
    coordinate and nothing else (no start component goes there). -/
theorem gather_rows_apply (hR : 0 < R) (d : GatherDims (Opnd R C) (Tbl U) (Upd U C))
    (g1 : d.offsetDims = [1]) (g2 : d.collapsedSliceDims = [0]) (g3 : d.operandBatchingDims = [])
    (g5 : d.startIndexMap = [0]) (g6 : d.indexVectorDim = 1) (g7 : d.sliceSizes = ![1, C])
    (x : (Opnd R C).Idx → α) (idx : IVec (Tbl U) w) (r : Fin U) (c : Fin C) :
    Host.gather d x idx (ix2 r c) = x (ix2 (gRow hR idx r) c) := by
  obtain ⟨od, cd, ob, sb, sm, iv, ss, wf⟩ := d
  dsimp only at g1 g2 g3 g5 g6 g7
  subst g1 g2 g3 g5 g6 g7
  unfold Host.gather
  refine congrArg x (funext ?_)
  refine Fin.forall_fin_two.2 ⟨?_, ?_⟩
  · apply Fin.ext
    show GatherDims.start _ (ix2 r c) idx 0 + GatherDims.batchCoord _ (ix2 r c) 0 + GatherDims.offCoord _ (ix2 r c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ ([0] : List (Fin 2)) from List.mem_singleton.mpr rfl)]
    refine congrArg (fun q => min (idx q).toInt.toNat (R - 1)) ?_
    funext b
    refine Fin.ext ?_
    match b with
    | ⟨0, _⟩ => rfl
    | ⟨1, _⟩ => rfl
  · apply Fin.ext
    show GatherDims.start _ (ix2 r c) idx 1 + GatherDims.batchCoord _ (ix2 r c) 1 + GatherDims.offCoord _ (ix2 r c) 1 = c.val
    rw [GatherDims.batchCoord_eq_zero _ _ _ List.not_mem_nil]
    unfold GatherDims.start
    rw [dif_neg (show (1 : Fin 2) ∉ ([0] : List (Fin 2)) by decide)]
    simp only [Nat.zero_add, Nat.add_zero]
    rfl

end Gather

/-! ## The scatter of a gather -/

/-- THE NEIGHBOUR SUM AT AN INDEX. Gathering the rows of `X` at the table `src` and adding them into `z` at the
    table `dst` gives, at `(a, c)`, `z (a, c)` plus the sum over the update rows `r` whose `dst` word reads signed
    as `a` of `X (gRow src r, c)`. Neither the set of rows nor `gRow src r` mentions the width `C`. -/
theorem scatter_gather_rows {w' : Nat} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : (Opnd R C).Idx → EReal) (dst : IVec (Tbl U) w) (src : IVec (Tbl U) w') (a : Fin R) (c : Fin C) :
    Ideal.hostScatterAdd ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_rows_drop ds h1 h2 h3 h4 dst z (Host.gather dg X src) a c]
  refine congrArg (z (ix2 a c) + ·) (Finset.sum_congr rfl fun r _ => ?_)
  exact gather_rows_apply hR dg g1 g2 g3 g5 g6 g7 X src r c

/-- At the exact instance the host's accumulating scatter is the exact sum (the instance's field, by definition). -/
theorem scatterAdd_ideal {s si u : Shape} {w : Nat} {φ : FTy} (d : ScatterDims s si u) (x : FVec Ideal s φ)
    (idx : IVec si w) (upd : FVec Ideal u φ) :
    Host.scatterAdd (F := Ideal) (φ := φ) d x idx upd = Ideal.hostScatterAdd d x idx upd := rfl

/-- THE NEIGHBOUR SUM AT AN INDEX, as the host operations spell it at the exact instance. -/
theorem host_scatter_gather_rows {w' : Nat} {φ : FTy} (hR : 0 < R)
    (ds : ScatterDims (Opnd R C) (Tbl U) (Upd U C))
    (h1 : ds.updateWindowDims = [1]) (h2 : ds.insertedWindowDims = [0]) (h3 : ds.scatterDimsToOperandDims = [0])
    (h4 : ds.indexVectorDim = 1)
    (dg : GatherDims (Opnd R C) (Tbl U) (Upd U C))
    (g1 : dg.offsetDims = [1]) (g2 : dg.collapsedSliceDims = [0]) (g3 : dg.operandBatchingDims = [])
    (g5 : dg.startIndexMap = [0]) (g6 : dg.indexVectorDim = 1) (g7 : dg.sliceSizes = ![1, C])
    (z X : FVec Ideal (Opnd R C) φ) (dst : IVec (Tbl U) w) (src : IVec (Tbl U) w') (a : Fin R) (c : Fin C) :
    Host.scatterAdd (F := Ideal) (φ := φ) ds z dst (Host.gather dg X src) (ix2 a c)
      = z (ix2 a c)
        + ∑ r ∈ Finset.univ.filter (fun r : Fin U => (dst (ix2 r (0 : Fin 1))).toInt = (a.val : Int)),
            X (ix2 (gRow hR src r) c) := by
  rw [scatterAdd_ideal]
  exact scatter_gather_rows hR ds h1 h2 h3 h4 dg g1 g2 g3 g5 g6 g7 z X dst src a c

end ScatterDrop

end
-- ==== Proof.LibGatherVec.lean ====
/-
  A vector gather read at an index, the two spreads that carry a per-row factor into a two-axis array, a signed word
  that a "negative index" wrap leaves alone, and the reciprocal square root of a clipped degree as a scale.

  The vector gather: the operand is a vector of `R` entries, the index table has `U` rows and one column, the result is
  a vector of `U` entries (no offset axis, the operand's one axis collapsed, the one start component for that axis,
  slices of one entry). Result entry `r` is the operand's entry at the table's word for row `r`, read signed and
  clamped into `[0, R - 1]` — the same row `gRow` the row gather of a two-axis operand reads.

  The spreads: a vector of `n` entries stood up as an `[n, 1]` column, and an `[n, 1]` column spread along the rows to
  `[n, b]`, read at coordinates (for `n ≠ 1`, so that the row axis is a copied axis and not a size-one axis).

  The wrap: `select (x <ₛ 0) (x + k) x` is `x` for a word that reads signed as a non-negative number.

  The scale: for any extended real `y ≥ 1` the reciprocal square root is a non-negative extended real other than `⊤`
  (`⊤ ↦ 0`, a real `r ≥ 1` to `1 / √r`), hence a factor that distributes over sums of extended reals.
-/
import proofs.«117706_j10969346474301_2_alg».proof.Proof.LibScatterDrop

noncomputable section

namespace GatherVec

open Idealize.ShloMosaic Idealize.ShloMosaic.ValueIdx ScatterRows

/-- A vector's shape. -/
abbrev Vec1 (n : Nat) : Shape := ⟨1, ![n]⟩

variable {R U n b w : Nat} {α : Type}

/-- THE VECTOR GATHER READ AT AN INDEX: result entry `r` reads the operand at `gRow r`: the clamped start and nothing
    else, the operand's one axis being collapsed. -/
theorem gather_vec_apply (hR : 0 < R) (d : GatherDims (Vec1 R) (Tbl U) (Vec1 U))
    (g1 : d.offsetDims = []) (g2 : d.collapsedSliceDims = [0]) (g3 : d.operandBatchingDims = [])
    (g5 : d.startIndexMap = [0]) (g6 : d.indexVectorDim = 1) (g7 : d.sliceSizes = ![1])
    (x : (Vec1 R).Idx → α) (idx : IVec (Tbl U) w) (r : Fin U) :
    Host.gather d x idx (ix1 r) = x (ix1 (ScatterDrop.gRow hR idx r)) := by
  obtain ⟨od, cd, ob, sb, sm, iv, ss, wf⟩ := d
  dsimp only at g1 g2 g3 g5 g6 g7
  subst g1 g2 g3 g5 g6 g7
  unfold Host.gather
  refine congrArg x (funext fun a => ?_)
  match a with
  | ⟨0, _⟩ =>
    apply Fin.ext
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ ([0] : List (Fin 1)) from List.mem_singleton.mpr rfl)]
    refine congrArg (fun q => min (idx q).toInt.toNat (R - 1)) ?_
    funext c
    refine Fin.ext ?_
    match c with
    | ⟨0, _⟩ => rfl
    | ⟨1, _⟩ => rfl

/-- A vector stood up as a column, read at `(r, 0)`, is the vector's entry `r`. -/
theorem column_apply (hn : n ≠ 1) (h : (Vec1 n).BroadcastsInDim (⟨2, ![n, 1]⟩ : Shape) (![0] : Fin 1 → Fin 2))
    (v : (Vec1 n).Idx → α) (r : Fin n) (z : Fin 1) :
    broadcastInDim (⟨2, ![n, 1]⟩ : Shape) ![0] h v (ix2 r z) = v (ix1 r) := by
  unfold broadcastInDim
  refine congrArg v (funext fun a => ?_)
  match a with
  | ⟨0, _⟩ =>
    split
    · rename_i h1; exact absurd h1 hn
    · exact Fin.ext rfl

/-- A column spread along the rows, read at `(r, c)`, is the column's entry `(r, 0)`. -/
theorem spread_apply (hn : n ≠ 1) (h : (⟨2, ![n, 1]⟩ : Shape).BroadcastsInDim (⟨2, ![n, b]⟩ : Shape) (![0, 1] : Fin 2 → Fin 2))
    (v : (⟨2, ![n, 1]⟩ : Shape).Idx → α) (r : Fin n) (c : Fin b) :
    broadcastInDim (⟨2, ![n, b]⟩ : Shape) ![0, 1] h v (ix2 r c) = v (ix2 r (0 : Fin 1)) := by
  unfold broadcastInDim
  refine congrArg v (funext fun a => ?_)
  match a with
  | ⟨0, _⟩ =>
    split
    · rename_i h1; exact absurd h1 hn
    · exact Fin.ext rfl
  | ⟨1, _⟩ =>
    split
    · exact Fin.ext rfl
    · rename_i h1; exact absurd rfl h1

/-- A per-row factor carried into a two-axis array: the vector's entry `r` at every column of row `r`. -/
theorem spread_column_apply (hn : n ≠ 1) (h1 : (Vec1 n).BroadcastsInDim (⟨2, ![n, 1]⟩ : Shape) (![0] : Fin 1 → Fin 2))
    (h2 : (⟨2, ![n, 1]⟩ : Shape).BroadcastsInDim (⟨2, ![n, b]⟩ : Shape) (![0, 1] : Fin 2 → Fin 2))
    (v : (Vec1 n).Idx → α) (r : Fin n) (c : Fin b) :
    broadcastInDim (⟨2, ![n, b]⟩ : Shape) ![0, 1] h2 (broadcastInDim (⟨2, ![n, 1]⟩ : Shape) ![0] h1 v) (ix2 r c) = v (ix1 r) := by
  rw [spread_apply hn h2, column_apply hn h1]

/-- A word that reads signed as a non-negative number is not below zero, so the wrap keeps it. -/
theorem wrap_of_nonneg (x k : BitVec 32) (hx : 0 ≤ x.toInt) :
    Scalar.select (IntOp.cmpi .slt x 0#32) (IntOp.addi x k) x = x := by
  have hs : x.slt 0#32 = false := by
    rw [BitVec.slt_eq_decide]
    simp only [BitVec.toInt_zero, decide_eq_false_iff_not, not_lt]
    exact hx
  unfold Scalar.select IntOp.cmpi
  simp only [hs]
  rw [if_neg (by decide)]

/-- The reciprocal square root of an extended real that is at least `1` is a non-negative extended real other than `⊤`. -/
theorem rsqrt_scale {y : EReal} (hy : 1 ≤ y) : 0 ≤ Ideal.rsqrt y ∧ Ideal.rsqrt y ≠ ⊤ := by
  induction y using EReal.rec with
  | bot => exact absurd hy (not_le.mpr (by exact_mod_cast EReal.bot_lt_coe 1))
  | top => exact ⟨le_of_eq Ideal.rsqrt_top.symm, by rw [Ideal.rsqrt_top]; exact EReal.zero_ne_top⟩
  | coe r =>
    have hr : (1 : ℝ) ≤ r := by exact_mod_cast hy
    have h0 : ¬ r < 0 := not_lt.mpr (le_trans zero_le_one hr)
    have h1 : ¬ r = 0 := fun h => by rw [h] at hr; exact absurd hr (by norm_num)
    rw [Ideal.rsqrt_coe, if_neg h0, if_neg h1]
    refine ⟨?_, EReal.coe_ne_top _⟩
    exact_mod_cast inv_nonneg.mpr (Real.sqrt_nonneg r)

end GatherVec

end
-- ==== Proof.LibScaleSum.lean ====
/-
  A non-negative finite scale moved across a finite sum of extended reals, and a clipped power that is such a scale.

  The extended reals are not a ring: a product distributes over a sum only under side conditions, because
  `⊤ + ⊥ = ⊥` while a negative or infinite factor can turn the two summands round.  A factor `c` with `0 ≤ c` and
  `c ≠ ⊤` does distribute over every sum, finite or not in its terms, and so it may be moved from outside a
  contraction `(∑ₖ aₖ · wₖ) · c` onto one factor of each term, `∑ₖ (aₖ · c) · wₖ`: the step between normalising
  the rows of a matrix product after the product and normalising the rows of its left factor before it.

  The scale met with in degree normalisation is `(max 1 d) ^ (-1/2)`.  Whatever `d` is — a count, or `⊤` — the base
  is at least `1`, and the power is a non-negative real: `⊤ ^ (-1/2) = 0`, and a real base `x ≥ 1` gives `x ^ (-1/2)`
  in `(0, 1]`.
-/
import Idealize.ShloMosaic.PureOps.Ideal

noncomputable section

namespace Cert.ScaleSum

open Idealize.ShloMosaic

/-- A factor `c` with `0 ≤ c`, `c ≠ ⊤` distributes over a finite sum of extended reals from the right. -/
theorem sum_mul_of_nonneg_of_ne_top {K : Type*} (s : Finset K) (f : K → EReal) {c : EReal} (h0 : 0 ≤ c) (ht : c ≠ ⊤) :
    (∑ k ∈ s, f k) * c = ∑ k ∈ s, f k * c := by
  classical
  induction s using Finset.induction_on with
  | empty => simp
  | insert a s ha ih =>
    rw [Finset.sum_insert ha, Finset.sum_insert ha, EReal.right_distrib_of_nonneg_of_ne_top h0 ht, ih]

/-- The scale moved across a contraction: `(∑ₖ aₖ · wₖ) · c = ∑ₖ (aₖ · c) · wₖ` for `0 ≤ c`, `c ≠ ⊤`. -/
theorem contraction_mul_scale {K : Type*} [Fintype K] (a w : K → EReal) {c : EReal} (h0 : 0 ≤ c) (ht : c ≠ ⊤) :
    (∑ k, a k * w k) * c = ∑ k, (a k * c) * w k := by
  rw [sum_mul_of_nonneg_of_ne_top _ _ h0 ht]
  exact Finset.sum_congr rfl fun k _ => mul_right_comm _ _ _

/-- The f32 pattern of `1.0` denotes `1`. -/
theorem ofBits_one : Ideal.ofBits .f32 0x3F800000#32 = 1 := by
  simp [Ideal.ofBits, Ideal.ieee, -EReal.coe_mul]; norm_num

/-- The f32 pattern of `-0.5` denotes the real `-1/2`. -/
theorem ofBits_neg_half : Ideal.ofBits .f32 0xBF000000#32 = ((-(1 / 2) : ℝ) : EReal) := by
  simp [Ideal.ofBits, Ideal.ieee, -EReal.coe_mul]; norm_num

/-- A base of at least `1` raised to a negative real is a non-negative extended real other than `⊤`. -/
theorem pow_nonneg_ne_top_of_one_le {x : EReal} (hx : 1 ≤ x) {y : ℝ} (hy : y < 0) :
    0 ≤ Ideal.pow x (y : EReal) ∧ Ideal.pow x (y : EReal) ≠ ⊤ := by
  induction x using EReal.rec with
  | bot => exact absurd hx (not_le.mpr (by exact_mod_cast EReal.bot_lt_coe 1))
  | top =>
    have h1 : ¬ (0 : EReal) < (y : EReal) := by
      rw [not_lt]; exact_mod_cast hy.le
    have h2 : ¬ ((y : EReal) = 0) := by
      exact_mod_cast hy.ne
    rw [Ideal.pow_top, if_neg h1, if_neg h2]
    exact ⟨le_refl _, EReal.zero_ne_top⟩
  | coe r =>
    have hr : (1 : ℝ) ≤ r := by exact_mod_cast hx
    rw [Ideal.pow_coe_coe]
    refine ⟨?_, EReal.coe_ne_top _⟩
    exact_mod_cast Real.rpow_nonneg (le_trans zero_le_one hr) y

/-- The degree normalisation `(max 1.0 d) ^ (-0.5)`, spelt with the f32 patterns, is a scale that distributes. -/
theorem clipped_pow_scale (d : EReal) :
    0 ≤ Ideal.pow (max (Ideal.ofBits .f32 0x3F800000#32) d) (Ideal.ofBits .f32 0xBF000000#32)
    ∧ Ideal.pow (max (Ideal.ofBits .f32 0x3F800000#32) d) (Ideal.ofBits .f32 0xBF000000#32) ≠ ⊤ := by
  rw [ofBits_one, ofBits_neg_half]
  exact pow_nonneg_ne_top_of_one_le (le_max_left _ _) (by norm_num)

end Cert.ScaleSum

end
-- ==== Proof.TailLaw.lean ====
/-
  The two arrangements of the normalised neighbour sum are one function.

  Fix the projection h, the edge table and the bias, a node n and a column j. Both programs add, over the edges e
  whose destination word reads signed as n (a word that names no node is dropped by both), a product that holds the
  gathered entry g(e) = h[s e, j] and the gathered normaliser c(e) = d[s e] of the edge's source row s e. The reference
  also puts in the normaliser gathered at the destination word; for an edge in the sum that word is n itself — it is
  non-negative, so the wrap leaves it, and below 100000, so the clamp leaves it — and the factor is d[n], the same for
  every edge of the sum. The kernel multiplies the finished sum by d[n]. Since d[n] is either 0 or the reciprocal
  square root of a number that is at least 1, it is a non-negative extended real other than ⊤, and such a factor
  distributes over a sum of extended reals whatever the terms are:
      (Σₑ c(e) · g(e)) · d[n]  =  Σₑ (d[n] · c(e)) · g(e).
  Nothing is assumed about h, the edge table or the bias.
-/
import proofs.«117706_j10969346474301_2_alg».proof.Proof.TailDefs
import proofs.«117706_j10969346474301_2_alg».proof.Proof.LibGatherVec
import proofs.«117706_j10969346474301_2_alg».proof.Proof.LibScaleSum
import Idealize.ShloMosaic.Lib.ValueIdx
import Idealize.ShloMosaic.Lib.IdealHost

noncomputable section

namespace Cert.KernelIdeal.TailLaw

open Cert.KernelIdeal Cert.KernelIdeal.Gen Cert.KernelIdeal.Tail Idealize.ShloMosaic Idealize.ShloMosaic.ValueIdx

/-- The reference's arrangement, written over this program's shapes and records. -/
def tailR' (h : FVec Ideal S100000x128 .f32) (ei : IVec S2x1600000 32) (b : FVec Ideal S128 .f32) : FVec Ideal S100000x128 .f32 :=
  addf
    (Host.scatterAdd scatter_S100000x128_S1600000x1_S1600000x128_1_0_0_1
      (broadcastInDim S100000x128 ![] bcast_S_S100000x128 (constant S_ .f32 0x00000000#32))
      (tbl (rowW ei))
      (mulf
        (edgeCols (mulf
          (Host.gather gather_S100000_S1600000x1_S1600000_n_0_n_n_0_1_1 (dis (F := Ideal) ei) (tbl (wrapW (rowW ei))))
          (Host.gather gather_S100000_S1600000x1_S1600000_n_0_n_n_0_1_1 (dis (F := Ideal) ei) (tbl (wrapW (colW ei))))))
        (Host.gather gather_S100000x128_S1600000x1_S1600000x128_1_0_n_n_0_1_1128 h (tbl (wrapW (colW ei))))))
    (biasRows b)

/-- It is the reference's own function: the two programs print the same shapes and records. -/
theorem tailR_eq (h : FVec Ideal S100000x128 .f32) (ei : IVec S2x1600000 32) (b : FVec Ideal S128 .f32) :
    Cert.ReferenceIdeal.Tail.tailR (F := Ideal) h ei b = tailR' h ei b := rfl

/-! ## The spreads at coordinates -/

theorem tbl_apply (v : IVec S1600000 32) (e : Fin 1600000) : tbl v (ix2 e (0 : Fin 1)) = v (ix1 e) :=
  GatherVec.column_apply (by decide) _ v e 0

theorem edgeCols_apply (v : FVec Ideal S1600000 .f32) (e : Fin 1600000) (j : Fin 128) :
    edgeCols (F := Ideal) v (ix2 e j) = v (ix1 e) :=
  GatherVec.spread_column_apply (by decide) _ _ v e j

theorem nodeCols_apply (v : FVec Ideal S100000 .f32) (n : Fin 100000) (j : Fin 128) :
    broadcastInDim S100000x128 ![0, 1] bcast_S100000x1_S100000x128_0_1
      (broadcastInDim S100000x1 ![0] bcast_S100000_S100000x1_0 v) (ix2 n j) = v (ix1 n) :=
  GatherVec.spread_column_apply (by decide) _ _ v n j

/-! ## The normaliser is a scale -/

/-- For ANY degree vector g: 0, or the reciprocal square root of max(g, 1), is a non-negative extended real other
    than ⊤ at every entry. -/
theorem scale_of (g : FVec Ideal S100000 .f32) (n : Fin 100000) :
    0 ≤ (select (cmpf .ogt g (broadcastInDim S100000 ![] bcast_S_S100000 (constant (F := Ideal) S_ .f32 0x00000000#32)))
          (Host.rsqrt (maximumf g (broadcastInDim S100000 ![] bcast_S_S100000 (constant (F := Ideal) S_ .f32 0x3F800000#32))))
          (broadcastInDim S100000 ![] bcast_S_S100000 (constant (F := Ideal) S_ .f32 0x00000000#32))) (ix1 n)
      ∧ (select (cmpf .ogt g (broadcastInDim S100000 ![] bcast_S_S100000 (constant (F := Ideal) S_ .f32 0x00000000#32)))
          (Host.rsqrt (maximumf g (broadcastInDim S100000 ![] bcast_S_S100000 (constant (F := Ideal) S_ .f32 0x3F800000#32))))
          (broadcastInDim S100000 ![] bcast_S_S100000 (constant (F := Ideal) S_ .f32 0x00000000#32))) (ix1 n) ≠ ⊤ := by
  rw [select_apply]
  unfold Scalar.select
  split
  · have h1 : Host.rsqrt (maximumf g (broadcastInDim S100000 ![] bcast_S_S100000 (constant (F := Ideal) S_ .f32 0x3F800000#32))) (ix1 n)
        = Ideal.rsqrt (max (g (ix1 n)) (Ideal.ofBits .f32 0x3F800000#32)) := rfl
    rw [h1, Cert.ScaleSum.ofBits_one]
    exact GatherVec.rsqrt_scale (le_max_right _ _)
  · have h2 : (broadcastInDim S100000 ![] bcast_S_S100000 (constant (F := Ideal) S_ .f32 0x00000000#32)) (ix1 n)
        = Ideal.ofBits .f32 0x00000000#32 := rfl
    rw [h2, Ideal.ofBits_zero_f32]
    exact ⟨le_refl _, EReal.zero_ne_top⟩

/-- Every entry of the normaliser vector is a non-negative extended real other than ⊤. -/
theorem dis_scale (ei : IVec S2x1600000 32) (n : Fin 100000) :
    0 ≤ dis (F := Ideal) ei (ix1 n) ∧ dis (F := Ideal) ei (ix1 n) ≠ ⊤ := by
  unfold dis
  exact scale_of _ n

/-! ## The normaliser gathered at the destination word of an edge that is in the sum -/

/-- For an edge whose destination word reads signed as the node n, the normaliser gathered at that word is d[n]. -/
theorem rowGather_of_mem (ei : IVec S2x1600000 32) (n : Fin 100000) (e : Fin 1600000)
    (he : (tbl (rowW ei) (ix2 e (0 : Fin 1))).toInt = (n.val : Int)) :
    Host.gather gather_S100000_S1600000x1_S1600000_n_0_n_n_0_1_1 (dis (F := Ideal) ei) (tbl (wrapW (rowW ei))) (ix1 e) = dis (F := Ideal) ei (ix1 n) := by
  refine (GatherVec.gather_vec_apply (R := 100000) (U := 1600000) (by decide) gather_S100000_S1600000x1_S1600000_n_0_n_n_0_1_1 rfl rfl rfl rfl rfl rfl
    (dis (F := Ideal) ei) (tbl (wrapW (rowW ei))) e).trans ?_
  refine congrArg (fun r : Fin 100000 => dis (F := Ideal) ei (ix1 r)) (Fin.ext ?_)
  show min (tbl (wrapW (rowW ei)) (ix2 e (0 : Fin 1))).toInt.toNat (100000 - 1) = n.val
  rw [tbl_apply] at he ⊢
  have hw : wrapW (rowW ei) (ix1 e) = rowW ei (ix1 e) := by
    unfold wrapW
    rw [select_apply]
    exact GatherVec.wrap_of_nonneg _ _ (by rw [he]; exact Int.natCast_nonneg _)
  rw [hw, he, Int.toNat_natCast]
  have := n.isLt
  omega

/-! ## The accumulating scatter at an entry -/

/-- The sum into a zero array, read at (n, j): the updates of the edges whose destination word reads signed as n. -/
theorem scatter_at (ei : IVec S2x1600000 32) (upd : FVec Ideal S1600000x128 .f32) (n : Fin 100000) (j : Fin 128) :
    Host.scatterAdd (F := Ideal) scatter_S100000x128_S1600000x1_S1600000x128_1_0_0_1
        (broadcastInDim S100000x128 ![] bcast_S_S100000x128 (constant S_ .f32 0x00000000#32)) (tbl (rowW ei)) upd (ix2 n j)
      = ∑ e ∈ Finset.univ.filter (fun e : Fin 1600000 => (tbl (rowW ei) (ix2 e (0 : Fin 1))).toInt = (n.val : Int)),
          upd (ix2 e j) := by
  rw [ScatterDrop.scatterAdd_ideal,
    ScatterDrop.scatterAdd_rows_drop (R := 100000) (C := 128) (U := 1600000) scatter_S100000x128_S1600000x1_S1600000x128_1_0_0_1 rfl rfl rfl rfl (tbl (rowW ei)) _ upd n j]
  have hz : (broadcastInDim S100000x128 ![] bcast_S_S100000x128 (constant (F := Ideal) S_ .f32 0x00000000#32)) (ix2 n j) = 0 := by
    show Ideal.ofBits .f32 0x00000000#32 = 0
    exact Ideal.ofBits_zero_f32
  rw [hz, zero_add]

/-! ## The law -/

/-- THE KERNEL'S ARRANGEMENT IS THE REFERENCE'S, for every projection, edge table and bias. -/
theorem tail_eq (h : FVec Ideal S100000x128 .bf16) (ei : IVec S2x1600000 32) (b : FVec Ideal S128 .f32) :
    tailK (F := Ideal) h ei b = tailR' h ei b := by
  funext i
  obtain ⟨n, j, rfl⟩ : ∃ (n : Fin 100000) (j : Fin 128), i = ix2 n j := ⟨i 0, i 1, eq_ix2 i⟩
  have hd := dis_scale ei n
  unfold tailK tailR'
  rw [addf_apply, addf_apply, mulf_apply, nodeCols_apply, scatter_at, scatter_at,
    Cert.ScaleSum.sum_mul_of_nonneg_of_ne_top _ _ hd.1 hd.2]
  refine congrArg (· + biasRows (F := Ideal) b (ix2 n j)) (Finset.sum_congr rfl fun e he => ?_)
  rw [Finset.mem_filter] at he
  rw [mulf_apply, mulf_apply, edgeCols_apply, edgeCols_apply, mulf_apply, extf_apply, rowGather_of_mem ei n e he.2,
    mul_right_comm, mul_comm (Host.gather gather_S100000_S1600000x1_S1600000_n_0_n_n_0_1_1 (dis (F := Ideal) ei) (tbl (wrapW (colW ei))) (ix1 e))]

end Cert.KernelIdeal.TailLaw

end
-- ==== Proof.lean ====
/-
  A graph-convolution layer: out = A_norm · (x · W) + bias, where A_norm is the adjacency of an edge list with every
  edge (dest, src) weighted d[dest] · d[src], d[n] = 1 / √(max(degree n, 1)) for a node of positive degree and 0
  otherwise, and the degree of n is the number of edges whose destination is n.

  The kernel computes the projection h = x · W on the matrix unit, ten blocks of 10000 rows, and stores it in a
  narrow float format; on the extended reals a change of format is the identity and a product into a zero accumulator
  is the plain sum, so h[p, q] = Σ_k x[p, k] · W[k, q], exactly what the reference's one contraction computes
  (KerValue, RefProj). After the projection both programs are host operations on (h, the edge table, the bias): the
  reference weights each gathered row h[src e, ·] by d[dest e] · d[src e] before adding it up at dest e; the kernel
  weights it by d[src e] only and multiplies the finished sum of node n by d[n]. For every edge that is added at n
  the destination word is n itself, and d[n] is a non-negative extended real other than ⊤, which distributes over any
  sum of extended reals: the two arrangements are one function of (h, edge table, bias), with no condition on the
  inputs (TailLaw). The two runs with their results named are KerTail (the kernel: the generated frame run, its
  output array, the host operations after the region) and RefRun (the reference's sixty host operations).

  The idealization changes nothing the pass records (the ledger is empty), so the second-to-last conjunct is trivial.
-/
import proofs.«117706_j10969346474301_2_alg».proof.Defs
import proofs.«117706_j10969346474301_2_alg».proof.Proof.Gen.Kernel
import proofs.«117706_j10969346474301_2_alg».proof.Proof.Gen.Kernel.Skeleton
import proofs.«117706_j10969346474301_2_alg».proof.Proof.Gen.Kernel.Launch
import proofs.«117706_j10969346474301_2_alg».proof.Proof.Gen.Kernel.Points
import proofs.«117706_j10969346474301_2_alg».proof.Proof.Gen.Kernel.Frame
import proofs.«117706_j10969346474301_2_alg».proof.Proof.Gen.KernelIdeal
import proofs.«117706_j10969346474301_2_alg».proof.Proof.Gen.KernelIdeal.Skeleton
import proofs.«117706_j10969346474301_2_alg».proof.Proof.Gen.KernelIdeal.Launch
import proofs.«117706_j10969346474301_2_alg».proof.Proof.Gen.KernelIdeal.Points
import proofs.«117706_j10969346474301_2_alg».proof.Proof.Gen.KernelIdeal.Frame
import proofs.«117706_j10969346474301_2_alg».proof.Proof.Gen.ReferenceIdeal
import proofs.«117706_j10969346474301_2_alg».proof.Proof.Gen.Pre_finite_inputs
import proofs.«117706_j10969346474301_2_alg».proof.Proof.TailDefs
import proofs.«117706_j10969346474301_2_alg».proof.Proof.KerValue
import proofs.«117706_j10969346474301_2_alg».proof.Proof.KerTail
import proofs.«117706_j10969346474301_2_alg».proof.Proof.RefRun
import proofs.«117706_j10969346474301_2_alg».proof.Proof.RefProj
import proofs.«117706_j10969346474301_2_alg».proof.Proof.TailLaw
import Idealize.ShloMosaic.Adequacy
import Idealize.ShloMosaic.Init

noncomputable section

namespace Cert.Proof

open Idealize.ShloMosaic Idealize.SL.Sem

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run with the result forgotten. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The idealization pass recorded no rewrite. -/
theorem preserves : Cert.preserves_Kernel_KernelIdeal := trivial

/-- From memories that agree on the four arguments both idealized programs end with the same result array: the
    kernel's arrangement of the normalised neighbour sum over the projection x · W. -/
theorem algebraic : Cert.algebraic_KernelIdeal_ReferenceIdeal := by
  intro m ρ m' ρ' _ hagree
  refine ⟨fun c => Cert.KernelIdeal.Tail.tailK (F := Ideal)
      (Cert.KernelIdeal.HValue.proj (Cert.KernelIdeal.Gen.V m c Cert.KernelIdeal.main_arg0)
        (Cert.KernelIdeal.Gen.V m c Cert.KernelIdeal.main_arg2))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3)), ?_, ?_⟩
  · refine (θ_run (Cert.KernelIdeal.defs (F := Ideal)) _ _).mono (fun _ h c => ⟨(h c).1.trans ?_, (h c).2⟩)
      (Cert.KernelIdeal.KerTail.run (F := Ideal) m ρ)
    rw [Cert.KernelIdeal.HValue.arr_eq m c]
  · refine (θ_run (Cert.ReferenceIdeal.defs (F := Ideal)) _ _).mono (fun _ h c => ⟨(h c).1.trans ?_, (h c).2⟩)
      (Cert.ReferenceIdeal.RefRun.run (F := Ideal) m' ρ')
    rw [(hagree c).1, (hagree c).2.1, (hagree c).2.2.1, (hagree c).2.2.2, Cert.ReferenceIdeal.RefProj.dot_eq_proj,
      Cert.KernelIdeal.TailLaw.tailR_eq]
    exact (Cert.KernelIdeal.TailLaw.tail_eq _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
